-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x1 .f32) (main_arg15 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg14
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64x64 .f32) (main_arg10 : FVec F S64 .f32) (main_arg11 : FVec F S64x64 .f32) (main_arg12 : FVec F S64x32 .f32) (main_arg13 : FVec F S32 .f32) (main_arg14 : FVec F S32x1 .f32) (main_arg15 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x32 .f32) (main_arg13 : FVec F S32 .f32) (main_arg14 : FVec F S32x1 .f32) (main_arg15 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S128x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x32 .f32) (main_arg13 : FVec F S32 .f32) (main_arg14 : FVec F S32x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S10000x128 : Shape := ⟨2, ![10000, 128]⟩
abbrev S10000x64 : Shape := ⟨2, ![10000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S512x64 : Shape := ⟨2, ![512, 64]⟩
abbrev S50000x1 : Shape := ⟨2, ![50000, 1]⟩
abbrev S512x1 : Shape := ⟨2, ![512, 1]⟩
abbrev S1x32 : Shape := ⟨2, ![1, 32]⟩
abbrev S1x1 : Shape := ⟨2, ![1, 1]⟩
abbrev S512x32 : Shape := ⟨2, ![512, 32]⟩
abbrev S512 : Shape := ⟨1, ![512]⟩

abbrev nBuf : Space → Nat
  | .hbm => 84
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x64, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .bf16⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S1x64, .f32⟩
  | .hbm, ⟨36, _⟩ => ⟨S50000x64, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .bf16⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S1x64, .f32⟩
  | .hbm, ⟨52, _⟩ => ⟨S50000x64, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .bf16⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S1x64, .f32⟩
  | .hbm, ⟨68, _⟩ => ⟨S50000x64, .bf16⟩
  | .hbm, ⟨69, _⟩ => ⟨S50000x64, .f32⟩
  | .hbm, ⟨70, _⟩ => ⟨S_, .f32⟩
  | .hbm, ⟨71, _⟩ => ⟨S512x64, .f32⟩
  | .hbm, ⟨72, _⟩ => ⟨S50000x1, .i32⟩
  | .hbm, ⟨73, _⟩ => ⟨S512x64, .f32⟩
  | .hbm, ⟨74, _⟩ => ⟨S_, .f32⟩
  | .hbm, ⟨75, _⟩ => ⟨S50000x1, .f32⟩
  | .hbm, ⟨76, _⟩ => ⟨S_, .f32⟩
  | .hbm, ⟨77, _⟩ => ⟨S512x1, .f32⟩
  | .hbm, ⟨78, _⟩ => ⟨S50000x1, .i32⟩
  | .hbm, ⟨79, _⟩ => ⟨S512x1, .f32⟩
  | .hbm, ⟨80, _⟩ => ⟨S1x32, .f32⟩
  | .hbm, ⟨81, _⟩ => ⟨S1x1, .f32⟩
  | .hbm, ⟨82, _⟩ => ⟨S512x1, .f32⟩
  | .hbm, ⟨83, _⟩ => ⟨S512, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S10000x128, .f32⟩
  | .local _ .vmem, ⟨8, _⟩ => ⟨S10000x128, .f32⟩
  | .local _ .vmem, ⟨9, _⟩ => ⟨S128x64, .f32⟩
  | .local _ .vmem, ⟨10, _⟩ => ⟨S1x64, .f32⟩
  | .local _ .vmem, ⟨11, _⟩ => ⟨S10000x64, .bf16⟩
  | .local _ .vmem, ⟨12, _⟩ => ⟨S10000x64, .bf16⟩
  | .local _ .vmem, ⟨13, _⟩ => ⟨S10000x64, .f32⟩
  | .local _ .vmem, ⟨14, _⟩ => ⟨S10000x64, .f32⟩
  | .local _ .vmem, ⟨15, _⟩ => ⟨S10000x64, .bf16⟩
  | .local _ .vmem, ⟨16, _⟩ => ⟨S10000x64, .bf16⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .bf16⟩
  | .local _ .vmem, ⟨21, _⟩ => ⟨S10000x64, .bf16⟩
  | .local _ .vmem, ⟨22, _⟩ => ⟨S10000x64, .f32⟩
  | .local _ .vmem, ⟨23, _⟩ => ⟨S10000x64, .f32⟩
  | .local _ .vmem, ⟨24, _⟩ => ⟨S10000x64, .bf16⟩
  | .local _ .vmem, ⟨25, _⟩ => ⟨S10000x64, .bf16⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S10000x64, .bf16⟩
  | .local _ .vmem, ⟨30, _⟩ => ⟨S10000x64, .bf16⟩
  | .local _ .vmem, ⟨31, _⟩ => ⟨S512x64, .f32⟩
  | .local _ .vmem, ⟨32, _⟩ => ⟨S512x1, .f32⟩
  | .local _ .vmem, ⟨33, _⟩ => ⟨S64x32, .f32⟩
  | .local _ .vmem, ⟨34, _⟩ => ⟨S1x32, .f32⟩
  | .local _ .vmem, ⟨35, _⟩ => ⟨S32x1, .f32⟩
  | .local _ .vmem, ⟨36, _⟩ => ⟨S1x1, .f32⟩
  | .local _ .vmem, ⟨37, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  shapeCasts_S32_S1x32 : S32.ShapeCasts S1x32
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .bf16 = 32 ∨ (Rect.block (s := S50000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .bf16 = 32 ∨ (Rect.block (s := S50000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .bf16 = 32 ∨ (Rect.block (s := S50000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .bf16 = 32 ∨ (Rect.block (s := S50000x64) S10000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .bf16 = 32 ∨ (Rect.block (s := S50000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .bf16 = 32 ∨ (Rect.block (s := S50000x64) S10000x64.size (cc3_transform_5 i) (hinb3_5 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x1.size a ≤ S32x1.size a
  hwx4_4 : ∀ i : grid4.Coords, EltTy.bits .f32 = 32 ∨ (Rect.block (s := S32x1) S32x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x1.size a ≤ S512x1.size a
  hwx4_6 : ∀ i : grid4.Coords, EltTy.bits .f32 = 32 ∨ (Rect.block (s := S512x1) S512x1.size (cc4_transform_6 i) (hinb4_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v51) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S32x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v54) S512x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S512x64 : Shape := ⟨2, ![512, 64]⟩
abbrev S50000x1 : Shape := ⟨2, ![50000, 1]⟩
abbrev S512x1 : Shape := ⟨2, ![512, 1]⟩
abbrev S512x32 : Shape := ⟨2, ![512, 32]⟩
abbrev S1x32 : Shape := ⟨2, ![1, 32]⟩
abbrev S1x1 : Shape := ⟨2, ![1, 1]⟩
abbrev S512 : Shape := ⟨1, ![512]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x64, .f32⟩
  | .hbm, ⟨34, _⟩ => ⟨S1x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S512x64, .f32⟩
  | .hbm, ⟨88, _⟩ => ⟨S50000x1, .i32⟩
  | .hbm, ⟨89, _⟩ => ⟨S512x64, .f32⟩
  | .hbm, ⟨90, _⟩ => ⟨S_, .f32⟩
  | .hbm, ⟨91, _⟩ => ⟨S50000x1, .f32⟩
  | .hbm, ⟨92, _⟩ => ⟨S_, .f32⟩
  | .hbm, ⟨93, _⟩ => ⟨S512x1, .f32⟩
  | .hbm, ⟨94, _⟩ => ⟨S50000x1, .i32⟩
  | .hbm, ⟨95, _⟩ => ⟨S512x1, .f32⟩
  | .hbm, ⟨96, _⟩ => ⟨S_, .f32⟩
  | .hbm, ⟨97, _⟩ => ⟨S512x1, .f32⟩
  | .hbm, ⟨98, _⟩ => ⟨S512x1, .f32⟩
  | .hbm, ⟨99, _⟩ => ⟨S512x64, .f32⟩
  | .hbm, ⟨100, _⟩ => ⟨S512x64, .f32⟩
  | .hbm, ⟨101, _⟩ => ⟨S512x32, .f32⟩
  | .hbm, ⟨102, _⟩ => ⟨S1x32, .f32⟩
  | .hbm, ⟨103, _⟩ => ⟨S512x32, .f32⟩
  | .hbm, ⟨104, _⟩ => ⟨S512x32, .f32⟩
  | .hbm, ⟨105, _⟩ => ⟨S_, .f32⟩
  | .hbm, ⟨106, _⟩ => ⟨S512x32, .f32⟩
  | .hbm, ⟨107, _⟩ => ⟨S512x32, .f32⟩
  | .hbm, ⟨108, _⟩ => ⟨S512x1, .f32⟩
  | .hbm, ⟨109, _⟩ => ⟨S1x1, .f32⟩
  | .hbm, ⟨110, _⟩ => ⟨S512x1, .f32⟩
  | .hbm, ⟨111, _⟩ => ⟨S512x1, .f32⟩
  | .hbm, ⟨112, _⟩ => ⟨S512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_cst : Ref sig .tc := ⟨.hbm, 39, rfl⟩
abbrev main_call0_v0 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_cst : Ref sig .tc := ⟨.hbm, 61, rfl⟩
abbrev main_call1_v0 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.KernelRun.lean ====
/-
  The idealized kernel program's run with its result named.

  Every weakly fair execution of the program ends, nothing faulting, with the result buffer at the contents that the
  last stretch of host operations leaves — the fold through the host stretches and the five kernel regions,
  from the launch memory — and with every argument array as launched.
-/
import proofs.«169739_j15650860827313_2_alg».proof.Proof.KernelIdealFrameP

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v55) = W11 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v55 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.KernelIdeal.RunValue

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.KernelKeeps.lean ====
/-
  Buffers that nothing writes between two boundaries of the idealized kernel program.

  The program is six stretches of host operations around five kernel regions. A stretch writes only its operations'
  result buffers, and a region only its output array (an input array is read through its window and left as it
  was). So an argument array, the edge endpoints, and a layer's output read, at a later boundary, what they held at
  an earlier one — down to the launch memory for an argument.
-/
import proofs.«169739_j15650860827313_2_alg».proof.Proof.KernelIdealFrameP
import proofs.«169739_j15650860827313_2_alg».proof.Proof.LibHostKeeps
import Idealize.ShloMosaic.PureOps.Ideal

set_option maxRecDepth 16384

noncomputable section

namespace Cert.KernelIdeal.KernelValue

open Cert.KernelIdeal Cert.KernelIdeal.Gen Cert.KernelIdeal.GenP Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg)

theorem keep_arg0_1_m (c : Dev nD) : W1 m ρ c (Proc.devRef .tc main_arg0) = m ((c : Thread nD τ).loc main_arg0) :=
  calc W1 m ρ c (Proc.devRef .tc main_arg0)
    _ = W0 m ρ c (Proc.devRef .tc main_arg0) := (by host_keeps hostOps0)
    _ = m ((c : Thread nD τ).loc main_arg0) := rfl

theorem keep_arg3_1_m (c : Dev nD) : W1 m ρ c (Proc.devRef .tc main_arg3) = m ((c : Thread nD τ).loc main_arg3) :=
  calc W1 m ρ c (Proc.devRef .tc main_arg3)
    _ = W0 m ρ c (Proc.devRef .tc main_arg3) := (by host_keeps hostOps0)
    _ = m ((c : Thread nD τ).loc main_arg3) := rfl

theorem keep_arg0_3_m (c : Dev nD) : W3 m ρ c (Proc.devRef .tc main_arg0) = m ((c : Thread nD τ).loc main_arg0) :=
  calc W3 m ρ c (Proc.devRef .tc main_arg0)
    _ = W2 m ρ c (Proc.devRef .tc main_arg0) := (by host_keeps hostOps1)
    _ = W1 m ρ c (Proc.devRef .tc main_arg0) := ((W2_arr m ρ c 0).trans (((dat0 (V1 m ρ) c).arrAt_in 0 rfl _).trans (A_eq0 (V1 m ρ) c 0)))
    _ = W0 m ρ c (Proc.devRef .tc main_arg0) := (by host_keeps hostOps0)
    _ = m ((c : Thread nD τ).loc main_arg0) := rfl

theorem keep_arg5_3_m (c : Dev nD) : W3 m ρ c (Proc.devRef .tc main_arg5) = m ((c : Thread nD τ).loc main_arg5) :=
  calc W3 m ρ c (Proc.devRef .tc main_arg5)
    _ = W2 m ρ c (Proc.devRef .tc main_arg5) := (by host_keeps hostOps1)
    _ = W1 m ρ c (Proc.devRef .tc main_arg5) := (W2_of_ne m ρ c main_arg5 (by decide))
    _ = W0 m ρ c (Proc.devRef .tc main_arg5) := (by host_keeps hostOps0)
    _ = m ((c : Thread nD τ).loc main_arg5) := rfl

theorem keep_arg4_2_m (c : Dev nD) : W2 m ρ c (Proc.devRef .tc main_arg4) = m ((c : Thread nD τ).loc main_arg4) :=
  calc W2 m ρ c (Proc.devRef .tc main_arg4)
    _ = W1 m ρ c (Proc.devRef .tc main_arg4) := (W2_of_ne m ρ c main_arg4 (by decide))
    _ = W0 m ρ c (Proc.devRef .tc main_arg4) := (by host_keeps hostOps0)
    _ = m ((c : Thread nD τ).loc main_arg4) := rfl

theorem keep_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

theorem keep_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := (W4_of_ne m ρ c main_v1 (by decide))
    _ = W2 m ρ c (Proc.devRef .tc main_v1) := (by host_keeps hostOps1)
    _ = W1 m ρ c (Proc.devRef .tc main_v1) := (W2_of_ne m ρ c main_v1 (by decide))

theorem keep_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := (W4_of_ne m ρ c main_v3 (by decide))
    _ = W2 m ρ c (Proc.devRef .tc main_v3) := (by host_keeps hostOps1)
    _ = W1 m ρ c (Proc.devRef .tc main_v3) := (W2_of_ne m ρ c main_v3 (by decide))

theorem keep_v1_6_1 (c : Dev nD) : W6 m ρ c (Proc.devRef .tc main_v1) = W1 m ρ c (Proc.devRef .tc main_v1) :=
  calc W6 m ρ c (Proc.devRef .tc main_v1)
    _ = W5 m ρ c (Proc.devRef .tc main_v1) := (W6_of_ne m ρ c main_v1 (by decide))
    _ = W4 m ρ c (Proc.devRef .tc main_v1) := (by host_keeps hostOps2)
    _ = W3 m ρ c (Proc.devRef .tc main_v1) := (W4_of_ne m ρ c main_v1 (by decide))
    _ = W2 m ρ c (Proc.devRef .tc main_v1) := (by host_keeps hostOps1)
    _ = W1 m ρ c (Proc.devRef .tc main_v1) := (W2_of_ne m ρ c main_v1 (by decide))

theorem keep_v3_6_1 (c : Dev nD) : W6 m ρ c (Proc.devRef .tc main_v3) = W1 m ρ c (Proc.devRef .tc main_v3) :=
  calc W6 m ρ c (Proc.devRef .tc main_v3)
    _ = W5 m ρ c (Proc.devRef .tc main_v3) := (W6_of_ne m ρ c main_v3 (by decide))
    _ = W4 m ρ c (Proc.devRef .tc main_v3) := (by host_keeps hostOps2)
    _ = W3 m ρ c (Proc.devRef .tc main_v3) := (W4_of_ne m ρ c main_v3 (by decide))
    _ = W2 m ρ c (Proc.devRef .tc main_v3) := (by host_keeps hostOps1)
    _ = W1 m ρ c (Proc.devRef .tc main_v3) := (W2_of_ne m ρ c main_v3 (by decide))

theorem keep_arg7_4_m (c : Dev nD) : W4 m ρ c (Proc.devRef .tc main_arg7) = m ((c : Thread nD τ).loc main_arg7) :=
  calc W4 m ρ c (Proc.devRef .tc main_arg7)
    _ = W3 m ρ c (Proc.devRef .tc main_arg7) := (W4_of_ne m ρ c main_arg7 (by decide))
    _ = W2 m ρ c (Proc.devRef .tc main_arg7) := (by host_keeps hostOps1)
    _ = W1 m ρ c (Proc.devRef .tc main_arg7) := (W2_of_ne m ρ c main_arg7 (by decide))
    _ = W0 m ρ c (Proc.devRef .tc main_arg7) := (by host_keeps hostOps0)
    _ = m ((c : Thread nD τ).loc main_arg7) := rfl

theorem keep_arg6_5_m (c : Dev nD) : W5 m ρ c (Proc.devRef .tc main_arg6) = m ((c : Thread nD τ).loc main_arg6) :=
  calc W5 m ρ c (Proc.devRef .tc main_arg6)
    _ = W4 m ρ c (Proc.devRef .tc main_arg6) := (by host_keeps hostOps2)
    _ = W3 m ρ c (Proc.devRef .tc main_arg6) := (W4_of_ne m ρ c main_arg6 (by decide))
    _ = W2 m ρ c (Proc.devRef .tc main_arg6) := (by host_keeps hostOps1)
    _ = W1 m ρ c (Proc.devRef .tc main_arg6) := (W2_of_ne m ρ c main_arg6 (by decide))
    _ = W0 m ρ c (Proc.devRef .tc main_arg6) := (by host_keeps hostOps0)
    _ = m ((c : Thread nD τ).loc main_arg6) := rfl

theorem keep_arg8_5_m (c : Dev nD) : W5 m ρ c (Proc.devRef .tc main_arg8) = m ((c : Thread nD τ).loc main_arg8) :=
  calc W5 m ρ c (Proc.devRef .tc main_arg8)
    _ = W4 m ρ c (Proc.devRef .tc main_arg8) := (by host_keeps hostOps2)
    _ = W3 m ρ c (Proc.devRef .tc main_arg8) := (W4_of_ne m ρ c main_arg8 (by decide))
    _ = W2 m ρ c (Proc.devRef .tc main_arg8) := (by host_keeps hostOps1)
    _ = W1 m ρ c (Proc.devRef .tc main_arg8) := (W2_of_ne m ρ c main_arg8 (by decide))
    _ = W0 m ρ c (Proc.devRef .tc main_arg8) := (by host_keeps hostOps0)
    _ = m ((c : Thread nD τ).loc main_arg8) := rfl

theorem keep_v17_5_4 (c : Dev nD) : W5 m ρ c (Proc.devRef .tc main_v17) = W4 m ρ c (Proc.devRef .tc main_v17) :=
  calc W5 m ρ c (Proc.devRef .tc main_v17)
    _ = W4 m ρ c (Proc.devRef .tc main_v17) := (by host_keeps hostOps2)

theorem keep_arg10_6_m (c : Dev nD) : W6 m ρ c (Proc.devRef .tc main_arg10) = m ((c : Thread nD τ).loc main_arg10) :=
  calc W6 m ρ c (Proc.devRef .tc main_arg10)
    _ = W5 m ρ c (Proc.devRef .tc main_arg10) := (W6_of_ne m ρ c main_arg10 (by decide))
    _ = W4 m ρ c (Proc.devRef .tc main_arg10) := (by host_keeps hostOps2)
    _ = W3 m ρ c (Proc.devRef .tc main_arg10) := (W4_of_ne m ρ c main_arg10 (by decide))
    _ = W2 m ρ c (Proc.devRef .tc main_arg10) := (by host_keeps hostOps1)
    _ = W1 m ρ c (Proc.devRef .tc main_arg10) := (W2_of_ne m ρ c main_arg10 (by decide))
    _ = W0 m ρ c (Proc.devRef .tc main_arg10) := (by host_keeps hostOps0)
    _ = m ((c : Thread nD τ).loc main_arg10) := rfl

theorem keep_arg9_7_m (c : Dev nD) : W7 m ρ c (Proc.devRef .tc main_arg9) = m ((c : Thread nD τ).loc main_arg9) :=
  calc W7 m ρ c (Proc.devRef .tc main_arg9)
    _ = W6 m ρ c (Proc.devRef .tc main_arg9) := (by host_keeps hostOps3)
    _ = W5 m ρ c (Proc.devRef .tc main_arg9) := (W6_of_ne m ρ c main_arg9 (by decide))
    _ = W4 m ρ c (Proc.devRef .tc main_arg9) := (by host_keeps hostOps2)
    _ = W3 m ρ c (Proc.devRef .tc main_arg9) := (W4_of_ne m ρ c main_arg9 (by decide))
    _ = W2 m ρ c (Proc.devRef .tc main_arg9) := (by host_keeps hostOps1)
    _ = W1 m ρ c (Proc.devRef .tc main_arg9) := (W2_of_ne m ρ c main_arg9 (by decide))
    _ = W0 m ρ c (Proc.devRef .tc main_arg9) := (by host_keeps hostOps0)
    _ = m ((c : Thread nD τ).loc main_arg9) := rfl

theorem keep_arg11_7_m (c : Dev nD) : W7 m ρ c (Proc.devRef .tc main_arg11) = m ((c : Thread nD τ).loc main_arg11) :=
  calc W7 m ρ c (Proc.devRef .tc main_arg11)
    _ = W6 m ρ c (Proc.devRef .tc main_arg11) := (by host_keeps hostOps3)
    _ = W5 m ρ c (Proc.devRef .tc main_arg11) := (W6_of_ne m ρ c main_arg11 (by decide))
    _ = W4 m ρ c (Proc.devRef .tc main_arg11) := (by host_keeps hostOps2)
    _ = W3 m ρ c (Proc.devRef .tc main_arg11) := (W4_of_ne m ρ c main_arg11 (by decide))
    _ = W2 m ρ c (Proc.devRef .tc main_arg11) := (by host_keeps hostOps1)
    _ = W1 m ρ c (Proc.devRef .tc main_arg11) := (W2_of_ne m ρ c main_arg11 (by decide))
    _ = W0 m ρ c (Proc.devRef .tc main_arg11) := (by host_keeps hostOps0)
    _ = m ((c : Thread nD τ).loc main_arg11) := rfl

theorem keep_v30_7_6 (c : Dev nD) : W7 m ρ c (Proc.devRef .tc main_v30) = W6 m ρ c (Proc.devRef .tc main_v30) :=
  calc W7 m ρ c (Proc.devRef .tc main_v30)
    _ = W6 m ρ c (Proc.devRef .tc main_v30) := (by host_keeps hostOps3)

theorem keep_arg2_8_m (c : Dev nD) : W8 m ρ c (Proc.devRef .tc main_arg2) = m ((c : Thread nD τ).loc main_arg2) :=
  calc W8 m ρ c (Proc.devRef .tc main_arg2)
    _ = W7 m ρ c (Proc.devRef .tc main_arg2) := (W8_of_ne m ρ c main_arg2 (by decide))
    _ = W6 m ρ c (Proc.devRef .tc main_arg2) := (by host_keeps hostOps3)
    _ = W5 m ρ c (Proc.devRef .tc main_arg2) := (W6_of_ne m ρ c main_arg2 (by decide))
    _ = W4 m ρ c (Proc.devRef .tc main_arg2) := (by host_keeps hostOps2)
    _ = W3 m ρ c (Proc.devRef .tc main_arg2) := (W4_of_ne m ρ c main_arg2 (by decide))
    _ = W2 m ρ c (Proc.devRef .tc main_arg2) := (by host_keeps hostOps1)
    _ = W1 m ρ c (Proc.devRef .tc main_arg2) := (W2_of_ne m ρ c main_arg2 (by decide))
    _ = W0 m ρ c (Proc.devRef .tc main_arg2) := (by host_keeps hostOps0)
    _ = m ((c : Thread nD τ).loc main_arg2) := rfl

theorem keep_arg13_8_m (c : Dev nD) : W8 m ρ c (Proc.devRef .tc main_arg13) = m ((c : Thread nD τ).loc main_arg13) :=
  calc W8 m ρ c (Proc.devRef .tc main_arg13)
    _ = W7 m ρ c (Proc.devRef .tc main_arg13) := (W8_of_ne m ρ c main_arg13 (by decide))
    _ = W6 m ρ c (Proc.devRef .tc main_arg13) := (by host_keeps hostOps3)
    _ = W5 m ρ c (Proc.devRef .tc main_arg13) := (W6_of_ne m ρ c main_arg13 (by decide))
    _ = W4 m ρ c (Proc.devRef .tc main_arg13) := (by host_keeps hostOps2)
    _ = W3 m ρ c (Proc.devRef .tc main_arg13) := (W4_of_ne m ρ c main_arg13 (by decide))
    _ = W2 m ρ c (Proc.devRef .tc main_arg13) := (by host_keeps hostOps1)
    _ = W1 m ρ c (Proc.devRef .tc main_arg13) := (W2_of_ne m ρ c main_arg13 (by decide))
    _ = W0 m ρ c (Proc.devRef .tc main_arg13) := (by host_keeps hostOps0)
    _ = m ((c : Thread nD τ).loc main_arg13) := rfl

theorem keep_arg15_8_m (c : Dev nD) : W8 m ρ c (Proc.devRef .tc main_arg15) = m ((c : Thread nD τ).loc main_arg15) :=
  calc W8 m ρ c (Proc.devRef .tc main_arg15)
    _ = W7 m ρ c (Proc.devRef .tc main_arg15) := (W8_of_ne m ρ c main_arg15 (by decide))
    _ = W6 m ρ c (Proc.devRef .tc main_arg15) := (by host_keeps hostOps3)
    _ = W5 m ρ c (Proc.devRef .tc main_arg15) := (W6_of_ne m ρ c main_arg15 (by decide))
    _ = W4 m ρ c (Proc.devRef .tc main_arg15) := (by host_keeps hostOps2)
    _ = W3 m ρ c (Proc.devRef .tc main_arg15) := (W4_of_ne m ρ c main_arg15 (by decide))
    _ = W2 m ρ c (Proc.devRef .tc main_arg15) := (by host_keeps hostOps1)
    _ = W1 m ρ c (Proc.devRef .tc main_arg15) := (W2_of_ne m ρ c main_arg15 (by decide))
    _ = W0 m ρ c (Proc.devRef .tc main_arg15) := (by host_keeps hostOps0)
    _ = m ((c : Thread nD τ).loc main_arg15) := rfl

theorem keep_arg12_9_m (c : Dev nD) : W9 m ρ c (Proc.devRef .tc main_arg12) = m ((c : Thread nD τ).loc main_arg12) :=
  calc W9 m ρ c (Proc.devRef .tc main_arg12)
    _ = W8 m ρ c (Proc.devRef .tc main_arg12) := (by host_keeps hostOps4)
    _ = W7 m ρ c (Proc.devRef .tc main_arg12) := (W8_of_ne m ρ c main_arg12 (by decide))
    _ = W6 m ρ c (Proc.devRef .tc main_arg12) := (by host_keeps hostOps3)
    _ = W5 m ρ c (Proc.devRef .tc main_arg12) := (W6_of_ne m ρ c main_arg12 (by decide))
    _ = W4 m ρ c (Proc.devRef .tc main_arg12) := (by host_keeps hostOps2)
    _ = W3 m ρ c (Proc.devRef .tc main_arg12) := (W4_of_ne m ρ c main_arg12 (by decide))
    _ = W2 m ρ c (Proc.devRef .tc main_arg12) := (by host_keeps hostOps1)
    _ = W1 m ρ c (Proc.devRef .tc main_arg12) := (W2_of_ne m ρ c main_arg12 (by decide))
    _ = W0 m ρ c (Proc.devRef .tc main_arg12) := (by host_keeps hostOps0)
    _ = m ((c : Thread nD τ).loc main_arg12) := rfl

theorem keep_arg14_9_m (c : Dev nD) : W9 m ρ c (Proc.devRef .tc main_arg14) = m ((c : Thread nD τ).loc main_arg14) :=
  calc W9 m ρ c (Proc.devRef .tc main_arg14)
    _ = W8 m ρ c (Proc.devRef .tc main_arg14) := (by host_keeps hostOps4)
    _ = W7 m ρ c (Proc.devRef .tc main_arg14) := (W8_of_ne m ρ c main_arg14 (by decide))
    _ = W6 m ρ c (Proc.devRef .tc main_arg14) := (by host_keeps hostOps3)
    _ = W5 m ρ c (Proc.devRef .tc main_arg14) := (W6_of_ne m ρ c main_arg14 (by decide))
    _ = W4 m ρ c (Proc.devRef .tc main_arg14) := (by host_keeps hostOps2)
    _ = W3 m ρ c (Proc.devRef .tc main_arg14) := (W4_of_ne m ρ c main_arg14 (by decide))
    _ = W2 m ρ c (Proc.devRef .tc main_arg14) := (by host_keeps hostOps1)
    _ = W1 m ρ c (Proc.devRef .tc main_arg14) := (W2_of_ne m ρ c main_arg14 (by decide))
    _ = W0 m ρ c (Proc.devRef .tc main_arg14) := (by host_keeps hostOps0)
    _ = m ((c : Thread nD τ).loc main_arg14) := rfl

end Cert.KernelIdeal.KernelValue

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.Spec.lean ====
/-
  The functions this certificate is about, over the extended reals and for any sizes.

  A graph-convolution layer takes, for every node, the sum A of its in-neighbours' feature rows and its own row H,
  and returns the positive part of A·Wr + b + H·Wo.  In the first layer the neighbour sum may be taken after the
  product with Wr instead of before it (`layerPre`): summing rows and multiplying by a matrix commute.  The readout
  divides each graph's summed rows by its node count (at least one), and applies two dense layers.
-/
import Idealize.ShloMosaic.Lib.ValueIdx
import Idealize.ShloMosaic.PureOps.Ideal
import proofs.«169739_j15650860827313_2_alg».proof.Proof.LibMatOps

noncomputable section

open scoped BigOperators

namespace Cert.Spec

open Idealize.ShloMosaic Idealize.ShloMosaic.ValueIdx

variable {n k k' d g f : ℕ}

/-- A vector of length d as the one row of a 1 × d matrix. -/
def rowOf (b : (⟨1, ![d]⟩ : Shape).Idx → EReal) : Mat 1 d := fun i => b (ix1 (i 1))

theorem rowOf_apply (b : (⟨1, ![d]⟩ : Shape).Idx → EReal) (z : Fin 1) (j : Fin d) : rowOf b (ix2 z j) = b (ix1 j) := rfl

/-- A layer on neighbour sums A and own rows H: the positive part of (A·Wr + b) + H·Wo. -/
def layer (A : Mat n k) (H : Mat n k') (Wr : Mat k d) (B : Mat 1 d) (Wo : Mat k' d) : Mat n d :=
  relu (fun i => addRow (mm A Wr) B i + mm H Wo i)

theorem layer_apply (A : Mat n k) (H : Mat n k') (Wr : Mat k d) (B : Mat 1 d) (Wo : Mat k' d) (p : Fin n) (j : Fin d) :
    layer A H Wr B Wo (ix2 p j)
      = max (((∑ q : Fin k, A (ix2 p q) * Wr (ix2 q j)) + B (ix2 (0 : Fin 1) j)) + ∑ q : Fin k', H (ix2 p q) * Wo (ix2 q j)) 0 := rfl

/-- A layer whose neighbour sums A were taken after the product with Wr: the positive part of (A + b) + X·Wo. -/
def layerPre (A : Mat n d) (X : Mat n k) (B : Mat 1 d) (Wo : Mat k d) : Mat n d :=
  relu (fun i => addRow A B i + mm X Wo i)

theorem layerPre_apply (A : Mat n d) (X : Mat n k) (B : Mat 1 d) (Wo : Mat k d) (p : Fin n) (j : Fin d) :
    layerPre A X B Wo (ix2 p j) = max ((A (ix2 p j) + B (ix2 (0 : Fin 1) j)) + ∑ q : Fin k, X (ix2 p q) * Wo (ix2 q j)) 0 := rfl

/-- Each row of Sm divided by the larger of that row's count and the constant `one`. -/
def meanRows (one : EReal) (Sm : Mat g k) (Cn : Mat g 1) : Mat g k :=
  fun i => Ideal.div (Sm i) (max (Cn (ix2 (i 0) (0 : Fin 1))) one)

theorem meanRows_apply (one : EReal) (Sm : Mat g k) (Cn : Mat g 1) (p : Fin g) (q : Fin k) :
    meanRows one Sm Cn (ix2 p q) = Ideal.div (Sm (ix2 p q)) (max (Cn (ix2 p (0 : Fin 1))) one) := rfl

/-- The readout: mean rows, a dense layer with positive part, a dense layer. -/
def head (one : EReal) (Sm : Mat g k) (Cn : Mat g 1) (W1 : Mat k f) (B1 : Mat 1 f) (W2 : Mat f 1) (B2 : Mat 1 1) : Mat g 1 :=
  addRow (mm (relu (addRow (mm (meanRows one Sm Cn) W1) B1)) W2) B2

theorem head_apply (one : EReal) (Sm : Mat g k) (Cn : Mat g 1) (W1 : Mat k f) (B1 : Mat 1 f) (W2 : Mat f 1) (B2 : Mat 1 1)
    (p : Fin g) (z : Fin 1) :
    head one Sm Cn W1 B1 W2 B2 (ix2 p z)
      = (∑ r : Fin f, max ((∑ q : Fin k, Ideal.div (Sm (ix2 p q)) (max (Cn (ix2 p (0 : Fin 1))) one) * W1 (ix2 q r))
            + B1 (ix2 (0 : Fin 1) r)) 0 * W2 (ix2 r z)) + B2 (ix2 (0 : Fin 1) z) := rfl

end Cert.Spec

end
-- ==== Proof.KernelFn.lean ====
/-
  The idealized kernel program as one function of its sixteen argument arrays.

  The edges' endpoints are the two rows of the edge array. The neighbour sum of a node-feature array takes, for every
  edge, the row of its (wrapped, clamped) source node and adds it into the row of its target node. The first layer
  sums the rows of X·W_rel1; the next two sum the rows of the previous layer's output and multiply afterwards. The
  readout sums the last layer's rows per graph, counts the nodes per graph, and applies the two dense layers.
-/
import proofs.«169739_j15650860827313_2_alg».proof.KernelIdeal
import proofs.«169739_j15650860827313_2_alg».proof.Proof.Gen.KernelIdeal
import proofs.«169739_j15650860827313_2_alg».proof.Proof.Spec

noncomputable section

namespace Cert.KernelIdeal.Fn

open Cert.KernelIdeal Cert.KernelIdeal.Facts₀ Cert.KernelIdeal.Facts Idealize.ShloMosaic

/-- The source node of every edge: row 0 of the edge array. -/
def srcOf (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000

/-- The target node of every edge: row 1 of the edge array. -/
def dstOf (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- A source index below zero counts from the end; as a column of start indices. -/
def startOf (v1 : (⟨S800000, .i32⟩ : BufTy).Contents (Elt Ideal)) : (⟨S800000x1, .i32⟩ : BufTy).Contents (Elt Ideal) :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The neighbour sums of the rows of `h`: every edge adds its source's row into its target's row. -/
def agg (h : (⟨S50000x64, .bf16⟩ : BufTy).Contents (Elt Ideal)) (v1 v3 : (⟨S800000, .i32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 v3)
    (extf .f32 (Host.gather gather_S50000x64_S800000x1_S800000x64_1_0_n_n_0_1_164 h (startOf v1)) bitsLt_bf16_f32)

/-- The rows of `h` summed per graph. -/
def sums (h : (⟨S50000x64, .bf16⟩ : BufTy).Contents (Elt Ideal)) (x2 : (⟨S50000, .i32⟩ : BufTy).Contents (Elt Ideal)) : (⟨S512x64, .f32⟩ : BufTy).Contents (Elt Ideal) :=
  Host.scatterAdd (F := Ideal) scatter_S512x64_S50000x1_S50000x64_1_0_0_1
    (broadcastInDim S512x64 ![] bcast_S_S512x64 (constant (F := Ideal) S_ .f32 0x00000000#32))
    (broadcastInDim S50000x1 ![0] bcast_S50000_S50000x1_0 x2)
    (extf .f32 h bitsLt_bf16_f32)

/-- The number of nodes of each graph. -/
def cnts (x2 : (⟨S50000, .i32⟩ : BufTy).Contents (Elt Ideal)) : (⟨S512x1, .f32⟩ : BufTy).Contents (Elt Ideal) :=
  Host.scatterAdd (F := Ideal) scatter_S512x1_S50000x1_S50000x1_1_0_0_1
    (broadcastInDim S512x1 ![] bcast_S_S512x1 (constant (F := Ideal) S_ .f32 0x00000000#32))
    (broadcastInDim S50000x1 ![0] bcast_S50000_S50000x1_0 x2)
    (broadcastInDim S50000x1 ![] bcast_S_S50000x1 (constant (F := Ideal) S_ .f32 0x3F800000#32))

/-- A bias vector as one row. -/
def row64 (b : (⟨S64, .f32⟩ : BufTy).Contents (Elt Ideal)) : (⟨S1x64, .f32⟩ : BufTy).Contents (Elt Ideal) := shapeCast S1x64 b shapeCasts_S64_S1x64
def row32 (b : (⟨S32, .f32⟩ : BufTy).Contents (Elt Ideal)) : (⟨S1x32, .f32⟩ : BufTy).Contents (Elt Ideal) := shapeCast S1x32 b shapeCasts_S32_S1x32
def row1 (b : (⟨S1, .f32⟩ : BufTy).Contents (Elt Ideal)) : (⟨S1x1, .f32⟩ : BufTy).Contents (Elt Ideal) := shapeCast S1x1 b shapeCasts_S1_S1x1

/-- The first layer's output. -/
def h1 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal))
    (x5 : (⟨S128x64, .f32⟩ : BufTy).Contents (Elt Ideal)) : (⟨S50000x64, .bf16⟩ : BufTy).Contents (Elt Ideal) :=
  Cert.Spec.layerPre (agg (Cert.Spec.mm x0 x3) (srcOf x1) (dstOf x1)) x0 (row64 x4) x5

/-- A later layer's output from the previous layer's. -/
def next (h : (⟨S50000x64, .bf16⟩ : BufTy).Contents (Elt Ideal)) (x1 : (⟨S2x800000, .i32⟩ : BufTy).Contents (Elt Ideal)) (wr : (⟨S64x64, .f32⟩ : BufTy).Contents (Elt Ideal)) (b : (⟨S64, .f32⟩ : BufTy).Contents (Elt Ideal))
    (wo : (⟨S64x64, .f32⟩ : BufTy).Contents (Elt Ideal)) : (⟨S50000x64, .bf16⟩ : BufTy).Contents (Elt Ideal) :=
  Cert.Spec.layer (agg h (srcOf x1) (dstOf x1)) h wr (row64 b) wo

/-- The readout of the last layer's output. -/
def readout (h : (⟨S50000x64, .bf16⟩ : BufTy).Contents (Elt Ideal)) (x2 : (⟨S50000, .i32⟩ : BufTy).Contents (Elt Ideal)) (x12 : (⟨S64x32, .f32⟩ : BufTy).Contents (Elt Ideal)) (x13 : (⟨S32, .f32⟩ : BufTy).Contents (Elt Ideal))
    (x14 : (⟨S32x1, .f32⟩ : BufTy).Contents (Elt Ideal)) (x15 : (⟨S1, .f32⟩ : BufTy).Contents (Elt Ideal)) : (⟨S512, .f32⟩ : BufTy).Contents (Elt Ideal) :=
  shapeCast S512 (Cert.Spec.head (Ideal.ofBits .f32 0x3F800000#32) (sums h x2) (cnts x2) x12 (row32 x13) x14 (row1 x15) : (⟨S512x1, .f32⟩ : BufTy).Contents (Elt Ideal))
    shapeCasts_S512x1_S512

end Cert.KernelIdeal.Fn

end
-- ==== Proof.KernelStretch.lean ====
/-
  What each stretch of host operations of the idealized kernel program leaves in the buffers the next region reads.

  Read back operation by operation, a stretch's result is the operations' composed term of the buffers the stretch
  found: the edge endpoints are slices of the edge array, a neighbour sum is the gather and scatter-add of
  `Fn.agg`, a bias row is the reshaped bias vector, the per-graph sums and counts are `Fn.sums` and `Fn.cnts`.
-/
import proofs.«169739_j15650860827313_2_alg».proof.Proof.KernelIdealFrameP
import proofs.«169739_j15650860827313_2_alg».proof.Proof.KernelFn
import Idealize.ShloMosaic.Lib.StableHlo.Run

set_option maxRecDepth 16384

noncomputable section

namespace Cert.KernelIdeal.KernelValue

open Cert.KernelIdeal Cert.KernelIdeal.Gen Cert.KernelIdeal.GenP Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg)

set_option maxHeartbeats 4000000 in
theorem after0_v1 (Wb : Valuation τ sig (Elt Ideal)) :
    StableHlo.after hostOps0 Wb (Proc.devRef .tc main_v1) = Fn.srcOf (Wb (Proc.devRef .tc main_arg1)) := by
  after_results
  rfl

theorem src_1 (c : Dev nD) : W1 m ρ c (Proc.devRef .tc main_v1) = Fn.srcOf (W0 m ρ c (Proc.devRef .tc main_arg1)) :=
  after0_v1 (W0 m ρ c)

set_option maxHeartbeats 4000000 in
theorem after0_v3 (Wb : Valuation τ sig (Elt Ideal)) :
    StableHlo.after hostOps0 Wb (Proc.devRef .tc main_v3) = Fn.dstOf (Wb (Proc.devRef .tc main_arg1)) := by
  after_results
  rfl

theorem dst_1 (c : Dev nD) : W1 m ρ c (Proc.devRef .tc main_v3) = Fn.dstOf (W0 m ρ c (Proc.devRef .tc main_arg1)) :=
  after0_v3 (W0 m ρ c)

set_option maxHeartbeats 4000000 in
theorem after1_v15 (Wb : Valuation τ sig (Elt Ideal)) :
    StableHlo.after hostOps1 Wb (Proc.devRef .tc main_v15) = Fn.agg (Wb (Proc.devRef .tc main_v4)) (Wb (Proc.devRef .tc main_v1)) (Wb (Proc.devRef .tc main_v3)) := by
  after_results
  rfl

theorem v15_3 (c : Dev nD) : W3 m ρ c (Proc.devRef .tc main_v15) = Fn.agg (W2 m ρ c (Proc.devRef .tc main_v4)) (W2 m ρ c (Proc.devRef .tc main_v1)) (W2 m ρ c (Proc.devRef .tc main_v3)) :=
  after1_v15 (W2 m ρ c)

set_option maxHeartbeats 4000000 in
theorem after1_v16 (Wb : Valuation τ sig (Elt Ideal)) :
    StableHlo.after hostOps1 Wb (Proc.devRef .tc main_v16) = Fn.row64 (Wb (Proc.devRef .tc main_arg4)) := by
  after_results
  rfl

theorem v16_3 (c : Dev nD) : W3 m ρ c (Proc.devRef .tc main_v16) = Fn.row64 (W2 m ρ c (Proc.devRef .tc main_arg4)) :=
  after1_v16 (W2 m ρ c)

set_option maxHeartbeats 4000000 in
theorem after2_v28 (Wb : Valuation τ sig (Elt Ideal)) :
    StableHlo.after hostOps2 Wb (Proc.devRef .tc main_v28) = Fn.agg (Wb (Proc.devRef .tc main_v17)) (Wb (Proc.devRef .tc main_v1)) (Wb (Proc.devRef .tc main_v3)) := by
  after_results
  rfl

theorem v28_5 (c : Dev nD) : W5 m ρ c (Proc.devRef .tc main_v28) = Fn.agg (W4 m ρ c (Proc.devRef .tc main_v17)) (W4 m ρ c (Proc.devRef .tc main_v1)) (W4 m ρ c (Proc.devRef .tc main_v3)) :=
  after2_v28 (W4 m ρ c)

set_option maxHeartbeats 4000000 in
theorem after2_v29 (Wb : Valuation τ sig (Elt Ideal)) :
    StableHlo.after hostOps2 Wb (Proc.devRef .tc main_v29) = Fn.row64 (Wb (Proc.devRef .tc main_arg7)) := by
  after_results
  rfl

theorem v29_5 (c : Dev nD) : W5 m ρ c (Proc.devRef .tc main_v29) = Fn.row64 (W4 m ρ c (Proc.devRef .tc main_arg7)) :=
  after2_v29 (W4 m ρ c)

set_option maxHeartbeats 4000000 in
theorem after3_v41 (Wb : Valuation τ sig (Elt Ideal)) :
    StableHlo.after hostOps3 Wb (Proc.devRef .tc main_v41) = Fn.agg (Wb (Proc.devRef .tc main_v30)) (Wb (Proc.devRef .tc main_v1)) (Wb (Proc.devRef .tc main_v3)) := by
  after_results
  rfl

theorem v41_7 (c : Dev nD) : W7 m ρ c (Proc.devRef .tc main_v41) = Fn.agg (W6 m ρ c (Proc.devRef .tc main_v30)) (W6 m ρ c (Proc.devRef .tc main_v1)) (W6 m ρ c (Proc.devRef .tc main_v3)) :=
  after3_v41 (W6 m ρ c)

set_option maxHeartbeats 4000000 in
theorem after3_v42 (Wb : Valuation τ sig (Elt Ideal)) :
    StableHlo.after hostOps3 Wb (Proc.devRef .tc main_v42) = Fn.row64 (Wb (Proc.devRef .tc main_arg10)) := by
  after_results
  rfl

theorem v42_7 (c : Dev nD) : W7 m ρ c (Proc.devRef .tc main_v42) = Fn.row64 (W6 m ρ c (Proc.devRef .tc main_arg10)) :=
  after3_v42 (W6 m ρ c)

set_option maxHeartbeats 4000000 in
theorem after4_v47 (Wb : Valuation τ sig (Elt Ideal)) :
    StableHlo.after hostOps4 Wb (Proc.devRef .tc main_v47) = Fn.sums (Wb (Proc.devRef .tc main_v43)) (Wb (Proc.devRef .tc main_arg2)) := by
  after_results
  rfl

theorem v47_9 (c : Dev nD) : W9 m ρ c (Proc.devRef .tc main_v47) = Fn.sums (W8 m ρ c (Proc.devRef .tc main_v43)) (W8 m ρ c (Proc.devRef .tc main_arg2)) :=
  after4_v47 (W8 m ρ c)

set_option maxHeartbeats 4000000 in
theorem after4_v51 (Wb : Valuation τ sig (Elt Ideal)) :
    StableHlo.after hostOps4 Wb (Proc.devRef .tc main_v51) = Fn.cnts (Wb (Proc.devRef .tc main_arg2)) := by
  after_results
  rfl

theorem v51_9 (c : Dev nD) : W9 m ρ c (Proc.devRef .tc main_v51) = Fn.cnts (W8 m ρ c (Proc.devRef .tc main_arg2)) :=
  after4_v51 (W8 m ρ c)

set_option maxHeartbeats 4000000 in
theorem after4_v52 (Wb : Valuation τ sig (Elt Ideal)) :
    StableHlo.after hostOps4 Wb (Proc.devRef .tc main_v52) = Fn.row32 (Wb (Proc.devRef .tc main_arg13)) := by
  after_results
  rfl

theorem v52_9 (c : Dev nD) : W9 m ρ c (Proc.devRef .tc main_v52) = Fn.row32 (W8 m ρ c (Proc.devRef .tc main_arg13)) :=
  after4_v52 (W8 m ρ c)

set_option maxHeartbeats 4000000 in
theorem after4_v53 (Wb : Valuation τ sig (Elt Ideal)) :
    StableHlo.after hostOps4 Wb (Proc.devRef .tc main_v53) = Fn.row1 (Wb (Proc.devRef .tc main_arg15)) := by
  after_results
  rfl

theorem v53_9 (c : Dev nD) : W9 m ρ c (Proc.devRef .tc main_v53) = Fn.row1 (W8 m ρ c (Proc.devRef .tc main_arg15)) :=
  after4_v53 (W8 m ρ c)

set_option maxHeartbeats 4000000 in
theorem after5_v55 (Wb : Valuation τ sig (Elt Ideal)) :
    StableHlo.after hostOps5 Wb (Proc.devRef .tc main_v55) = shapeCast S512 (Wb (Proc.devRef .tc main_v54)) Facts₀.shapeCasts_S512x1_S512 := by
  after_results
  rfl

theorem v55_11 (c : Dev nD) : W11 m ρ c (Proc.devRef .tc main_v55) = shapeCast S512 (W10 m ρ c (Proc.devRef .tc main_v54)) Facts₀.shapeCasts_S512x1_S512 :=
  after5_v55 (W10 m ρ c)

end Cert.KernelIdeal.KernelValue

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«169739_j15650860827313_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.RegionLemmas.lean ====
/-
  The arithmetic of each kernel body, read at one entry of the block it stores, as a function of the blocks it
  loads.  At the ideal instance a change of format is the identity, a product with the matrix unit into the zero
  accumulator is the sum over the inner index of the products, a row broadcast over many rows reads that row, and a
  column broadcast over many columns reads that column: so each body's stored block is, entry by entry, the
  specification's term of the loaded blocks.
-/
import proofs.«169739_j15650860827313_2_alg».proof.Proof.Gen.KernelIdeal.Skeleton
import proofs.«169739_j15650860827313_2_alg».proof.Proof.LibPlainDot
import proofs.«169739_j15650860827313_2_alg».proof.Proof.Spec
import Idealize.ShloMosaic.Lib.Pipeline.Value
import Idealize.ShloMosaic.Lib.ValueLayout

noncomputable section

open scoped BigOperators

namespace Cert.KernelIdeal.RegionValue

open Cert.KernelIdeal Cert.KernelIdeal.Gen Idealize.ShloMosaic Idealize.ShloMosaic.ValueIdx

/-- The all-zero offset of a rank-2 rectangle. -/
theorem off_zero : (![0, 0] : Fin 2 → Nat) = fun _ => 0 := funext fun a => by fin_cases a <;> rfl

/-- A column broadcast over many columns reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Region 0's stored block: the product of the two loaded blocks. -/
theorem pay0_apply (x0 : Vec Ideal S10000x128 .f32) (x1 : Vec Ideal S128x64 .f32) (p : Fin 10000) (j : Fin 64) :
    k0_pay1 (F := Ideal) x0 x1 (ix2 p j) = ∑ q : Fin 128, x0 (ix2 p q) * x1 (ix2 q j) := by
  unfold k0_pay1
  exact Cert.LibPlainDot.matmul_zero_apply dot_S10000x128_S128x64_S10000x64_1_0_0_1_n_n rfl none _ _ p j

/-- Region 1's stored block: the positive part of (the summed rows plus the bias row) plus the product. -/
theorem pay1_apply (x0 : Vec Ideal S10000x64 .f32) (x1 : Vec Ideal S10000x128 .f32) (x2 : Vec Ideal S128x64 .f32)
    (x3 : Vec Ideal S1x64 .f32) (p : Fin 10000) (j : Fin 64) :
    k1_pay1 (F := Ideal) x0 x1 x2 x3 (ix2 p j)
      = max ((x0 (ix2 p j) + x3 (ix2 (0 : Fin 1) j)) + ∑ q : Fin 128, x1 (ix2 p q) * x2 (ix2 q j)) 0 := by
  unfold k1_pay1
  simp only [shapeCast_self]
  show max ((x0 (ix2 p j) + broadcastTo S10000x64 x3 _ (ix2 p j))
      + FloatOps.matmul (F := Ideal) dot_S10000x128_S128x64_S10000x64_1_0_0_1_n_n none _ _ _ (ix2 p j)) (Ideal.ofBits .f32 0x00000000#32) = _
  rw [broadcastTo_1b_ab_apply, Ideal.ofBits_zero_f32,
    Cert.LibPlainDot.matmul_zero_apply dot_S10000x128_S128x64_S10000x64_1_0_0_1_n_n rfl none _ _ p j]
  rfl

/-- Region 2's stored block: the positive part of (the first product plus the bias row) plus the second product. -/
theorem pay2_apply (x0 : Vec Ideal S10000x64 .f32) (x1 : Vec Ideal S10000x64 .bf16) (x2 : Vec Ideal S64x64 .f32)
    (x4 : Vec Ideal S64x64 .f32) (x3 : Vec Ideal S1x64 .f32) (p : Fin 10000) (j : Fin 64) :
    k2_pay1 (F := Ideal) x0 x1 x2 x4 x3 (ix2 p j)
      = max (((∑ q : Fin 64, x0 (ix2 p q) * x2 (ix2 q j)) + x3 (ix2 (0 : Fin 1) j)) + ∑ q : Fin 64, x1 (ix2 p q) * x4 (ix2 q j)) 0 := by
  unfold k2_pay1
  simp only [shapeCast_self]
  show max ((FloatOps.matmul (F := Ideal) dot_S10000x64_S64x64_S10000x64_1_0_0_1_n_n none _ _ _ (ix2 p j) + broadcastTo S10000x64 x3 _ (ix2 p j))
      + FloatOps.matmul (F := Ideal) dot_S10000x64_S64x64_S10000x64_1_0_0_1_n_n none _ _ _ (ix2 p j)) (Ideal.ofBits .f32 0x00000000#32) = _
  rw [broadcastTo_1b_ab_apply, Ideal.ofBits_zero_f32,
    Cert.LibPlainDot.matmul_zero_apply dot_S10000x64_S64x64_S10000x64_1_0_0_1_n_n rfl none _ _ p j,
    Cert.LibPlainDot.matmul_zero_apply dot_S10000x64_S64x64_S10000x64_1_0_0_1_n_n rfl none _ _ p j]
  rfl

/-- Region 3's stored block: the same term as region 2's. -/
theorem pay3_apply (x0 : Vec Ideal S10000x64 .f32) (x1 : Vec Ideal S10000x64 .bf16) (x2 : Vec Ideal S64x64 .f32)
    (x4 : Vec Ideal S64x64 .f32) (x3 : Vec Ideal S1x64 .f32) (p : Fin 10000) (j : Fin 64) :
    k3_pay1 (F := Ideal) x0 x1 x2 x4 x3 (ix2 p j)
      = max (((∑ q : Fin 64, x0 (ix2 p q) * x2 (ix2 q j)) + x3 (ix2 (0 : Fin 1) j)) + ∑ q : Fin 64, x1 (ix2 p q) * x4 (ix2 q j)) 0 := by
  unfold k3_pay1
  simp only [shapeCast_self]
  show max ((FloatOps.matmul (F := Ideal) dot_S10000x64_S64x64_S10000x64_1_0_0_1_n_n none _ _ _ (ix2 p j) + broadcastTo S10000x64 x3 _ (ix2 p j))
      + FloatOps.matmul (F := Ideal) dot_S10000x64_S64x64_S10000x64_1_0_0_1_n_n none _ _ _ (ix2 p j)) (Ideal.ofBits .f32 0x00000000#32) = _
  rw [broadcastTo_1b_ab_apply, Ideal.ofBits_zero_f32,
    Cert.LibPlainDot.matmul_zero_apply dot_S10000x64_S64x64_S10000x64_1_0_0_1_n_n rfl none _ _ p j,
    Cert.LibPlainDot.matmul_zero_apply dot_S10000x64_S64x64_S10000x64_1_0_0_1_n_n rfl none _ _ p j]
  rfl

/-- Region 4's stored block: each row of sums divided by the larger of its count and one, a dense layer with positive
    part, a dense layer. -/
theorem pay4_apply (x0 : Vec Ideal S512x1 .f32) (x1 : Vec Ideal S512x64 .f32) (x2 : Vec Ideal S64x32 .f32)
    (x3 : Vec Ideal S1x32 .f32) (x4 : Vec Ideal S32x1 .f32) (x5 : Vec Ideal S1x1 .f32) (p : Fin 512) (z : Fin 1) :
    k4_pay1 (F := Ideal) x0 x1 x2 x3 x4 x5 (ix2 p z)
      = (∑ r : Fin 32, max ((∑ q : Fin 64, Ideal.div (x1 (ix2 p q)) (max (x0 (ix2 p (0 : Fin 1))) (Ideal.ofBits .f32 0x3F800000#32)) * x2 (ix2 q r))
            + x3 (ix2 (0 : Fin 1) r)) 0 * x4 (ix2 r z)) + x5 (ix2 (0 : Fin 1) z) := by
  unfold k4_pay1
  simp only [shapeCast_self]
  show FloatOps.matmul (F := Ideal) dot_S512x32_S32x1_S512x1_1_0_0_1_n_n none _ _ _ (ix2 p z) + broadcastTo S512x1 x5 _ (ix2 p z) = _
  rw [Cert.LibPlainDot.matmul_zero_apply dot_S512x32_S32x1_S512x1_1_0_0_1_n_n rfl none _ _ p z, broadcastTo_1b_ab_apply]
  refine congrArg (· + _) (Finset.sum_congr rfl fun r _ => congrArg (· * _) ?_)
  show max (FloatOps.matmul (F := Ideal) dot_S512x64_S64x32_S512x32_1_0_0_1_n_n none _ _ _ (ix2 p r) + broadcastTo S512x32 x3 _ (ix2 p r))
      (Ideal.ofBits .f32 0x00000000#32) = _
  rw [Cert.LibPlainDot.matmul_zero_apply dot_S512x64_S64x32_S512x32_1_0_0_1_n_n rfl none _ _ p r, broadcastTo_1b_ab_apply,
    Ideal.ofBits_zero_f32]
  refine congrArg (max · 0) (congrArg (· + _) (Finset.sum_congr rfl fun q _ => congrArg (· * _) ?_))
  show Ideal.div (x1 (ix2 p q)) (broadcastTo S512x64 _ _ (ix2 p q)) = _
  rw [broadcastTo_a1_ab_apply]
  rfl

end Cert.KernelIdeal.RegionValue

end
-- ==== Proof.Region0.lean ====
/-
  Region 0 as one function of the arrays it finds: the array it writes ends holding the matrix product of the
  50000 × 128 array with the 128 × 64 weights.  Each of the five points stores the product of its block of 10000
  rows with the weights, which is that block of rows of the whole product; the five blocks of rows tile the array.
-/
import proofs.«169739_j15650860827313_2_alg».proof.Proof.KernelIdealFrameP
import proofs.«169739_j15650860827313_2_alg».proof.Proof.RegionLemmas
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.GenP Idealize.ShloMosaic.ValueIdx

variable (V : (c : Dev nD) → (b : Ref sig .tc) → Buf (Elt Ideal) ((c : Thread nD τ).loc b))

/-- The block indices at each point: the row-block index of the first operand is the result's, every other index is 0,
    and the result's row-block index is the point's number. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the product of a block of rows of A with W is the whole product's entry in that row: stated for any
    blocks x0, x1 that agree with A's row and W's column. -/
theorem mm_block0 (A : S50000x128.Idx → EReal) (W : S128x64.Idx → EReal) (x0 : Vec Ideal S10000x128 .f32)
    (x1 : Vec Ideal S128x64 .f32) (y : S10000x64.Idx) (i : S50000x64.Idx)
    (h0 : ∀ q : Fin 128, x0 (ix2 (y 0) q) = A (ix2 (i 0) q)) (h1 : ∀ q : Fin 128, x1 (ix2 q (y 1)) = W (ix2 q (i 1))) :
    k0_pay1 (F := Ideal) x0 x1 y = Cert.Spec.mm A W i := by
  obtain ⟨p, j, rfl⟩ : ∃ (p : Fin 10000) (j : Fin 64), y = ix2 p j := ⟨y 0, y 1, eq_ix2 y⟩
  rw [pay0_apply]
  show _ = ∑ q : Fin 128, A (ix2 (i 0) q) * W (ix2 q (i 1))
  exact Finset.sum_congr rfl fun q _ => congrArg₂ (· * ·) (h0 q) (h1 q)

/-- What point t writes back is block t of the product. -/
theorem flushed0 (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero off_zero]
  simp only [View.ld_unit_zero (S := S10000x128) off_zero, View.ld_unit_zero (S := S128x64) off_zero]
  obtain ⟨e0, e1, e2, e3, e4, e5⟩ := idx0 t
  funext y
  show k0_pay1 (F := Ideal) (iblk0 V c 0 t) (iblk0 V c 1 t) y
    = Cert.Spec.mm (V c main_arg0) (V c main_arg3) (((cfg0.win 2).blk t).view.emb y)
  refine mm_block0 _ _ _ _ y _ (fun q => ?_) (fun q => ?_)
  · show V c main_arg0 (((cfg0.win 0).blk t).view.emb (ix2 (y 0) q)) = V c main_arg0 _
    refine congrArg _ (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * q.val = q.val; omega
  · show V c main_arg3 (((cfg0.win 1).blk t).view.emb (ix2 q (y 1))) = V c main_arg3 _
    refine congrArg _ (funext fun a => Fin.ext ?_)
    match a with
    | ⟨0, _⟩ => show win0_1.index t (0 : Fin 2) * 128 + 1 * q.val = q.val; omega
    | ⟨1, _⟩ => show win0_1.index t (1 : Fin 2) * 64 + 1 * (y 1).val = win0_2.index t (1 : Fin 2) * 64 + 1 * (y 1).val; omega

/-- An index of the array is in point t's block iff each coordinate is in the block's range on its axis. -/
theorem mem_blk0 (t : Fin cfg0.N) (i : S50000x64.Idx) :
    i ∈ ((cfg0.win 2).blk t).view.set
      ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every row of the array is in the block of the point numbered by the row's block of 10000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  let t : Fin cfg0.N := ⟨(i 0).val / 10000, by rw [hN]; omega⟩
  obtain ⟨-, -, -, -, e4, e5⟩ := idx0 t
  have e4' : win0_2.index t (0 : Fin 2) = (i 0).val / 10000 := e4
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0 leaves the matrix product in the array it writes. -/
theorem region0 (c : Dev nD) :
    (dat0 (F := Ideal) V c).arrAt 2 cfg0.N = Cert.Spec.mm (V c main_arg0) (V c main_arg3) :=
  (dat0 (F := Ideal) V c).arrAt_eq_of_cover 2 (Cert.Spec.mm (V c main_arg0) (V c main_arg3))
    (fun t _ => flushed0 V c t) cover0

end Cert.KernelIdeal.RegionValue

end
-- ==== Proof.Region1.lean ====
/-
  Region 1 as one function of the arrays it finds: the array it writes ends holding the first graph-convolution layer in
  the form whose neighbour sums were taken after the product: the positive part of (the summed rows plus the bias row)
  plus the product of the 50000 × 128 array with the 128 × 64 weights.  Each of the five points stores that term of its
  blocks of 10000 rows, which is that block of rows of the whole; the five blocks of rows tile the array.
-/
import proofs.«169739_j15650860827313_2_alg».proof.Proof.KernelIdealFrameP
import proofs.«169739_j15650860827313_2_alg».proof.Proof.RegionLemmas
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.GenP Idealize.ShloMosaic.ValueIdx

variable (V : (c : Dev nD) → (b : Ref sig .tc) → Buf (Elt Ideal) ((c : Thread nD τ).loc b))

/-- The block indices at each point: the row-block index of either row operand is the result's, every other index is 0,
    and the result's row-block index is the point's number. -/
theorem idx1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An entry of the layer of blocks of rows is the whole layer's entry in that row: stated for any blocks that agree with
    the entry of A, the row of X, the column of the weights and the bias entry. -/
theorem layerPre_block1 (A : S50000x64.Idx → EReal) (X : S50000x128.Idx → EReal) (B : S1x64.Idx → EReal)
    (Wo : S128x64.Idx → EReal)
    (x0 : Vec Ideal S10000x64 .f32) (x1 : Vec Ideal S10000x128 .f32) (x2 : Vec Ideal S128x64 .f32)
    (x3 : Vec Ideal S1x64 .f32) (y : S10000x64.Idx) (i : S50000x64.Idx)
    (h0 : x0 (ix2 (y 0) (y 1)) = A (ix2 (i 0) (i 1)))
    (h1 : ∀ q : Fin 128, x1 (ix2 (y 0) q) = X (ix2 (i 0) q))
    (h2 : ∀ q : Fin 128, x2 (ix2 q (y 1)) = Wo (ix2 q (i 1)))
    (h3 : x3 (ix2 (0 : Fin 1) (y 1)) = B (ix2 (0 : Fin 1) (i 1))) :
    k1_pay1 (F := Ideal) x0 x1 x2 x3 y = Cert.Spec.layerPre A X B Wo i := by
  obtain ⟨p, j, rfl⟩ : ∃ (p : Fin 10000) (j : Fin 64), y = ix2 p j := ⟨y 0, y 1, eq_ix2 y⟩
  obtain ⟨r, s, rfl⟩ : ∃ (r : Fin 50000) (s : Fin 64), i = ix2 r s := ⟨i 0, i 1, eq_ix2 i⟩
  rw [pay1_apply, Cert.Spec.layerPre_apply]
  exact congrArg (max · 0) (congrArg₂ (· + ·) (congrArg₂ (· + ·) h0 h3)
    (Finset.sum_congr rfl fun q _ => congrArg₂ (· * ·) (h1 q) (h2 q)))

/-- What point t writes back is block t of the layer. -/
theorem flushed1 (c : Dev nD) (t : Fin cfg1.N) :
    (dat1 (F := Ideal) V c).flushed 4 t
      = ((cfg1.win 4).blk t).view.read (Elt Ideal)
          (Cert.Spec.layerPre (V c main_v15) (V c main_arg0) (V c main_v16) (V c main_arg5)) := by
  show (cfg1.win 4).cut (grid1.coords t) ((dat1 V c).after 4 t) = _
  rw [after1_4]
  unfold out1_4
  rw [View.canon_unit_zero off_zero]
  simp only [View.ld_unit_zero (S := S10000x64) off_zero, View.ld_unit_zero (S := S10000x128) off_zero,
    View.ld_unit_zero (S := S128x64) off_zero, View.ld_unit_zero (S := S1x64) off_zero]
  obtain ⟨e0, e1, e2, e3, e4, e5, e6, e7, e8, e9⟩ := idx1 t
  funext y
  show k1_pay1 (F := Ideal) (iblk1 V c 0 t) (iblk1 V c 1 t) (iblk1 V c 2 t) (iblk1 V c 3 t) y
    = Cert.Spec.layerPre (V c main_v15) (V c main_arg0) (V c main_v16) (V c main_arg5) (((cfg1.win 4).blk t).view.emb y)
  refine layerPre_block1 _ _ _ _ _ _ _ _ y _ ?_ (fun q => ?_) (fun q => ?_) ?_
  · show V c main_v15 (((cfg1.win 0).blk t).view.emb (ix2 (y 0) (y 1))) = V c main_v15 _
    refine congrArg _ (funext fun a => Fin.ext ?_)
    match a with
    | ⟨0, _⟩ => show win1_0.index t (0 : Fin 2) * 10000 + 1 * (y 0).val = win1_4.index t (0 : Fin 2) * 10000 + 1 * (y 0).val; omega
    | ⟨1, _⟩ => show win1_0.index t (1 : Fin 2) * 64 + 1 * (y 1).val = win1_4.index t (1 : Fin 2) * 64 + 1 * (y 1).val; omega
  · show V c main_arg0 (((cfg1.win 1).blk t).view.emb (ix2 (y 0) q)) = V c main_arg0 _
    refine congrArg _ (funext fun a => Fin.ext ?_)
    match a with
    | ⟨0, _⟩ => show win1_1.index t (0 : Fin 2) * 10000 + 1 * (y 0).val = win1_4.index t (0 : Fin 2) * 10000 + 1 * (y 0).val; omega
    | ⟨1, _⟩ => show win1_1.index t (1 : Fin 2) * 128 + 1 * q.val = q.val; omega
  · show V c main_arg5 (((cfg1.win 2).blk t).view.emb (ix2 q (y 1))) = V c main_arg5 _
    refine congrArg _ (funext fun a => Fin.ext ?_)
    match a with
    | ⟨0, _⟩ => show win1_2.index t (0 : Fin 2) * 128 + 1 * q.val = q.val; omega
    | ⟨1, _⟩ => show win1_2.index t (1 : Fin 2) * 64 + 1 * (y 1).val = win1_4.index t (1 : Fin 2) * 64 + 1 * (y 1).val; omega
  · show V c main_v16 (((cfg1.win 3).blk t).view.emb (ix2 (0 : Fin 1) (y 1))) = V c main_v16 _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * (y 1).val = win1_4.index t (1 : Fin 2) * 64 + 1 * (y 1).val; omega

/-- An index of the array is in point t's block iff each coordinate is in the block's range on its axis. -/
theorem mem_blk1 (t : Fin cfg1.N) (i : S50000x64.Idx) :
    i ∈ ((cfg1.win 4).blk t).view.set
      ↔ ∀ a : Fin 2, win1_4.index t a * S10000x64.size a ≤ (i a).val ∧ (i a).val < win1_4.index t a * S10000x64.size a + S10000x64.size a := by
  show i ∈ ((View.whole main_v17).slice (win1_4.rect t)).set ↔ _
  rw [View.set_slice_whole, Rect.mem_set_unit]
  exact Iff.rfl

/-- Every row of the array is in the block of the point numbered by the row's block of 10000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 5 := N_1
  let t : Fin cfg1.N := ⟨(i 0).val / 10000, by rw [hN]; omega⟩
  obtain ⟨-, -, -, -, -, -, -, -, e8, e9⟩ := idx1 t
  have e8' : win1_4.index t (0 : Fin 2) = (i 0).val / 10000 := e8
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- Region 1 leaves the layer in the array it writes. -/
theorem region1 (c : Dev nD) :
    (dat1 (F := Ideal) V c).arrAt 4 cfg1.N
      = Cert.Spec.layerPre (V c main_v15) (V c main_arg0) (V c main_v16) (V c main_arg5) :=
  (dat1 (F := Ideal) V c).arrAt_eq_of_cover 4 (Cert.Spec.layerPre (V c main_v15) (V c main_arg0) (V c main_v16) (V c main_arg5))
    (fun t _ => flushed1 V c t) cover1

end Cert.KernelIdeal.RegionValue

end
-- ==== Proof.Region2.lean ====
/-
  Region 2 as one function of the arrays it finds: the array it writes ends holding the graph-convolution layer of
  the summed neighbour rows, the nodes' own rows, the two 64 × 64 weights and the bias row.  Each of the five points
  stores the layer of its blocks of 10000 rows, which is that block of rows of the whole layer; the five blocks of rows
  tile the array.
-/
import proofs.«169739_j15650860827313_2_alg».proof.Proof.KernelIdealFrameP
import proofs.«169739_j15650860827313_2_alg».proof.Proof.RegionLemmas
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.GenP Idealize.ShloMosaic.ValueIdx

variable (V : (c : Dev nD) → (b : Ref sig .tc) → Buf (Elt Ideal) ((c : Thread nD τ).loc b))

/-- The block indices at each point: the row-block index of either row operand is the result's, every other index is 0,
    and the result's row-block index is the point's number. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- An entry of the layer of blocks of rows is the whole layer's entry in that row: stated for any blocks that agree with
    the rows of A and H, the columns of the weights and the bias entry. -/
theorem layer_block2 (A : S50000x64.Idx → EReal) (H : S50000x64.Idx → EReal) (Wr : S64x64.Idx → EReal)
    (B : S1x64.Idx → EReal) (Wo : S64x64.Idx → EReal)
    (x0 : Vec Ideal S10000x64 .f32) (x1 : Vec Ideal S10000x64 .bf16) (x2 : Vec Ideal S64x64 .f32)
    (x4 : Vec Ideal S64x64 .f32) (x3 : Vec Ideal S1x64 .f32) (y : S10000x64.Idx) (i : S50000x64.Idx)
    (h0 : ∀ q : Fin 64, x0 (ix2 (y 0) q) = A (ix2 (i 0) q))
    (h1 : ∀ q : Fin 64, x1 (ix2 (y 0) q) = H (ix2 (i 0) q))
    (h2 : ∀ q : Fin 64, x2 (ix2 q (y 1)) = Wr (ix2 q (i 1)))
    (h3 : x3 (ix2 (0 : Fin 1) (y 1)) = B (ix2 (0 : Fin 1) (i 1)))
    (h4 : ∀ q : Fin 64, x4 (ix2 q (y 1)) = Wo (ix2 q (i 1))) :
    k2_pay1 (F := Ideal) x0 x1 x2 x4 x3 y = Cert.Spec.layer A H Wr B Wo i := by
  obtain ⟨p, j, rfl⟩ : ∃ (p : Fin 10000) (j : Fin 64), y = ix2 p j := ⟨y 0, y 1, eq_ix2 y⟩
  rw [pay2_apply]
  show _ = max (((∑ q : Fin 64, A (ix2 (i 0) q) * Wr (ix2 q (i 1))) + B (ix2 (0 : Fin 1) (i 1)))
    + ∑ q : Fin 64, H (ix2 (i 0) q) * Wo (ix2 q (i 1))) 0
  exact congrArg (max · 0) (congrArg₂ (· + ·)
    (congrArg₂ (· + ·) (Finset.sum_congr rfl fun q _ => congrArg₂ (· * ·) (h0 q) (h2 q)) h3)
    (Finset.sum_congr rfl fun q _ => congrArg₂ (· * ·) (h1 q) (h4 q)))

/-- What point t writes back is block t of the layer. -/
theorem flushed2 (c : Dev nD) (t : Fin cfg2.N) :
    (dat2 (F := Ideal) V c).flushed 5 t
      = ((cfg2.win 5).blk t).view.read (Elt Ideal)
          (Cert.Spec.layer (V c main_v28) (V c main_v17) (V c main_arg6) (V c main_v29) (V c main_arg8)) := by
  show (cfg2.win 5).cut (grid2.coords t) ((dat2 V c).after 5 t) = _
  rw [after2_5]
  unfold out2_5
  rw [View.canon_unit_zero off_zero]
  simp only [View.ld_unit_zero (S := S10000x64) off_zero, View.ld_unit_zero (S := S64x64) off_zero,
    View.ld_unit_zero (S := S1x64) off_zero]
  obtain ⟨e0, e1, e2, e3, e4, e5, e6, e7, e8, e9, e10, e11⟩ := idx2 t
  funext y
  show k2_pay1 (F := Ideal) (iblk2 V c 0 t) (iblk2 V c 1 t) (iblk2 V c 2 t) (iblk2 V c 4 t) (iblk2 V c 3 t) y
    = Cert.Spec.layer (V c main_v28) (V c main_v17) (V c main_arg6) (V c main_v29) (V c main_arg8) (((cfg2.win 5).blk t).view.emb y)
  refine layer_block2 _ _ _ _ _ _ _ _ _ _ y _ (fun q => ?_) (fun q => ?_) (fun q => ?_) ?_ (fun q => ?_)
  · show V c main_v28 (((cfg2.win 0).blk t).view.emb (ix2 (y 0) q)) = V c main_v28 _
    refine congrArg _ (funext fun a => Fin.ext ?_)
    match a with
    | ⟨0, _⟩ => show win2_0.index t (0 : Fin 2) * 10000 + 1 * (y 0).val = win2_5.index t (0 : Fin 2) * 10000 + 1 * (y 0).val; omega
    | ⟨1, _⟩ => show win2_0.index t (1 : Fin 2) * 64 + 1 * q.val = q.val; omega
  · show V c main_v17 (((cfg2.win 1).blk t).view.emb (ix2 (y 0) q)) = V c main_v17 _
    refine congrArg _ (funext fun a => Fin.ext ?_)
    match a with
    | ⟨0, _⟩ => show win2_1.index t (0 : Fin 2) * 10000 + 1 * (y 0).val = win2_5.index t (0 : Fin 2) * 10000 + 1 * (y 0).val; omega
    | ⟨1, _⟩ => show win2_1.index t (1 : Fin 2) * 64 + 1 * q.val = q.val; omega
  · show V c main_arg6 (((cfg2.win 2).blk t).view.emb (ix2 q (y 1))) = V c main_arg6 _
    refine congrArg _ (funext fun a => Fin.ext ?_)
    match a with
    | ⟨0, _⟩ => show win2_2.index t (0 : Fin 2) * 64 + 1 * q.val = q.val; omega
    | ⟨1, _⟩ => show win2_2.index t (1 : Fin 2) * 64 + 1 * (y 1).val = win2_5.index t (1 : Fin 2) * 64 + 1 * (y 1).val; omega
  · show V c main_v29 (((cfg2.win 3).blk t).view.emb (ix2 (0 : Fin 1) (y 1))) = V c main_v29 _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (y 1).val = win2_5.index t (1 : Fin 2) * 64 + 1 * (y 1).val; omega
  · show V c main_arg8 (((cfg2.win 4).blk t).view.emb (ix2 q (y 1))) = V c main_arg8 _
    refine congrArg _ (funext fun a => Fin.ext ?_)
    match a with
    | ⟨0, _⟩ => show win2_4.index t (0 : Fin 2) * 64 + 1 * q.val = q.val; omega
    | ⟨1, _⟩ => show win2_4.index t (1 : Fin 2) * 64 + 1 * (y 1).val = win2_5.index t (1 : Fin 2) * 64 + 1 * (y 1).val; omega

/-- An index of the array is in point t's block iff each coordinate is in the block's range on its axis. -/
theorem mem_blk2 (t : Fin cfg2.N) (i : S50000x64.Idx) :
    i ∈ ((cfg2.win 5).blk t).view.set
      ↔ ∀ a : Fin 2, win2_5.index t a * S10000x64.size a ≤ (i a).val ∧ (i a).val < win2_5.index t a * S10000x64.size a + S10000x64.size a := by
  show i ∈ ((View.whole main_v30).slice (win2_5.rect t)).set ↔ _
  rw [View.set_slice_whole, Rect.mem_set_unit]
  exact Iff.rfl

/-- Every row of the array is in the block of the point numbered by the row's block of 10000. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  obtain ⟨-, -, -, -, -, -, -, -, -, -, e10, e11⟩ := idx2 t
  have e10' : win2_5.index t (0 : Fin 2) = (i 0).val / 10000 := e10
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- Region 2 leaves the layer in the array it writes. -/
theorem region2 (c : Dev nD) :
    (dat2 (F := Ideal) V c).arrAt 5 cfg2.N
      = Cert.Spec.layer (V c main_v28) (V c main_v17) (V c main_arg6) (V c main_v29) (V c main_arg8) :=
  (dat2 (F := Ideal) V c).arrAt_eq_of_cover 5 (Cert.Spec.layer (V c main_v28) (V c main_v17) (V c main_arg6) (V c main_v29) (V c main_arg8))
    (fun t _ => flushed2 V c t) cover2

end Cert.KernelIdeal.RegionValue

end
-- ==== Proof.Region3.lean ====
/-
  Region 3 as one function of the arrays it finds: the array it writes ends holding the graph-convolution layer of
  the summed neighbour rows, the nodes' own rows, the two 64 × 64 weights and the bias row.  Each of the five points
  stores the layer of its blocks of 10000 rows, which is that block of rows of the whole layer; the five blocks of rows
  tile the array.
-/
import proofs.«169739_j15650860827313_2_alg».proof.Proof.KernelIdealFrameP
import proofs.«169739_j15650860827313_2_alg».proof.Proof.RegionLemmas
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.GenP Idealize.ShloMosaic.ValueIdx

variable (V : (c : Dev nD) → (b : Ref sig .tc) → Buf (Elt Ideal) ((c : Thread nD τ).loc b))

/-- The block indices at each point: the row-block index of either row operand is the result's, every other index is 0,
    and the result's row-block index is the point's number. -/
theorem idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- An entry of the layer of blocks of rows is the whole layer's entry in that row: stated for any blocks that agree with
    the rows of A and H, the columns of the weights and the bias entry. -/
theorem layer_block3 (A : S50000x64.Idx → EReal) (H : S50000x64.Idx → EReal) (Wr : S64x64.Idx → EReal)
    (B : S1x64.Idx → EReal) (Wo : S64x64.Idx → EReal)
    (x0 : Vec Ideal S10000x64 .f32) (x1 : Vec Ideal S10000x64 .bf16) (x2 : Vec Ideal S64x64 .f32)
    (x4 : Vec Ideal S64x64 .f32) (x3 : Vec Ideal S1x64 .f32) (y : S10000x64.Idx) (i : S50000x64.Idx)
    (h0 : ∀ q : Fin 64, x0 (ix2 (y 0) q) = A (ix2 (i 0) q))
    (h1 : ∀ q : Fin 64, x1 (ix2 (y 0) q) = H (ix2 (i 0) q))
    (h2 : ∀ q : Fin 64, x2 (ix2 q (y 1)) = Wr (ix2 q (i 1)))
    (h3 : x3 (ix2 (0 : Fin 1) (y 1)) = B (ix2 (0 : Fin 1) (i 1)))
    (h4 : ∀ q : Fin 64, x4 (ix2 q (y 1)) = Wo (ix2 q (i 1))) :
    k3_pay1 (F := Ideal) x0 x1 x2 x4 x3 y = Cert.Spec.layer A H Wr B Wo i := by
  obtain ⟨p, j, rfl⟩ : ∃ (p : Fin 10000) (j : Fin 64), y = ix2 p j := ⟨y 0, y 1, eq_ix2 y⟩
  rw [pay3_apply]
  show _ = max (((∑ q : Fin 64, A (ix2 (i 0) q) * Wr (ix2 q (i 1))) + B (ix2 (0 : Fin 1) (i 1)))
    + ∑ q : Fin 64, H (ix2 (i 0) q) * Wo (ix2 q (i 1))) 0
  exact congrArg (max · 0) (congrArg₂ (· + ·)
    (congrArg₂ (· + ·) (Finset.sum_congr rfl fun q _ => congrArg₂ (· * ·) (h0 q) (h2 q)) h3)
    (Finset.sum_congr rfl fun q _ => congrArg₂ (· * ·) (h1 q) (h4 q)))

/-- What point t writes back is block t of the layer. -/
theorem flushed3 (c : Dev nD) (t : Fin cfg3.N) :
    (dat3 (F := Ideal) V c).flushed 5 t
      = ((cfg3.win 5).blk t).view.read (Elt Ideal)
          (Cert.Spec.layer (V c main_v41) (V c main_v30) (V c main_arg9) (V c main_v42) (V c main_arg11)) := by
  show (cfg3.win 5).cut (grid3.coords t) ((dat3 V c).after 5 t) = _
  rw [after3_5]
  unfold out3_5
  rw [View.canon_unit_zero off_zero]
  simp only [View.ld_unit_zero (S := S10000x64) off_zero, View.ld_unit_zero (S := S64x64) off_zero,
    View.ld_unit_zero (S := S1x64) off_zero]
  obtain ⟨e0, e1, e2, e3, e4, e5, e6, e7, e8, e9, e10, e11⟩ := idx3 t
  funext y
  show k3_pay1 (F := Ideal) (iblk3 V c 0 t) (iblk3 V c 1 t) (iblk3 V c 2 t) (iblk3 V c 4 t) (iblk3 V c 3 t) y
    = Cert.Spec.layer (V c main_v41) (V c main_v30) (V c main_arg9) (V c main_v42) (V c main_arg11) (((cfg3.win 5).blk t).view.emb y)
  refine layer_block3 _ _ _ _ _ _ _ _ _ _ y _ (fun q => ?_) (fun q => ?_) (fun q => ?_) ?_ (fun q => ?_)
  · show V c main_v41 (((cfg3.win 0).blk t).view.emb (ix2 (y 0) q)) = V c main_v41 _
    refine congrArg _ (funext fun a => Fin.ext ?_)
    match a with
    | ⟨0, _⟩ => show win3_0.index t (0 : Fin 2) * 10000 + 1 * (y 0).val = win3_5.index t (0 : Fin 2) * 10000 + 1 * (y 0).val; omega
    | ⟨1, _⟩ => show win3_0.index t (1 : Fin 2) * 64 + 1 * q.val = q.val; omega
  · show V c main_v30 (((cfg3.win 1).blk t).view.emb (ix2 (y 0) q)) = V c main_v30 _
    refine congrArg _ (funext fun a => Fin.ext ?_)
    match a with
    | ⟨0, _⟩ => show win3_1.index t (0 : Fin 2) * 10000 + 1 * (y 0).val = win3_5.index t (0 : Fin 2) * 10000 + 1 * (y 0).val; omega
    | ⟨1, _⟩ => show win3_1.index t (1 : Fin 2) * 64 + 1 * q.val = q.val; omega
  · show V c main_arg9 (((cfg3.win 2).blk t).view.emb (ix2 q (y 1))) = V c main_arg9 _
    refine congrArg _ (funext fun a => Fin.ext ?_)
    match a with
    | ⟨0, _⟩ => show win3_2.index t (0 : Fin 2) * 64 + 1 * q.val = q.val; omega
    | ⟨1, _⟩ => show win3_2.index t (1 : Fin 2) * 64 + 1 * (y 1).val = win3_5.index t (1 : Fin 2) * 64 + 1 * (y 1).val; omega
  · show V c main_v42 (((cfg3.win 3).blk t).view.emb (ix2 (0 : Fin 1) (y 1))) = V c main_v42 _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * (y 1).val = win3_5.index t (1 : Fin 2) * 64 + 1 * (y 1).val; omega
  · show V c main_arg11 (((cfg3.win 4).blk t).view.emb (ix2 q (y 1))) = V c main_arg11 _
    refine congrArg _ (funext fun a => Fin.ext ?_)
    match a with
    | ⟨0, _⟩ => show win3_4.index t (0 : Fin 2) * 64 + 1 * q.val = q.val; omega
    | ⟨1, _⟩ => show win3_4.index t (1 : Fin 2) * 64 + 1 * (y 1).val = win3_5.index t (1 : Fin 2) * 64 + 1 * (y 1).val; omega

/-- An index of the array is in point t's block iff each coordinate is in the block's range on its axis. -/
theorem mem_blk3 (t : Fin cfg3.N) (i : S50000x64.Idx) :
    i ∈ ((cfg3.win 5).blk t).view.set
      ↔ ∀ a : Fin 2, win3_5.index t a * S10000x64.size a ≤ (i a).val ∧ (i a).val < win3_5.index t a * S10000x64.size a + S10000x64.size a := by
  show i ∈ ((View.whole main_v43).slice (win3_5.rect t)).set ↔ _
  rw [View.set_slice_whole, Rect.mem_set_unit]
  exact Iff.rfl

/-- Every row of the array is in the block of the point numbered by the row's block of 10000. -/
theorem cover3 (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 5 := N_3
  let t : Fin cfg3.N := ⟨(i 0).val / 10000, by rw [hN]; omega⟩
  obtain ⟨-, -, -, -, -, -, -, -, -, -, e10, e11⟩ := idx3 t
  have e10' : win3_5.index t (0 : Fin 2) = (i 0).val / 10000 := e10
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- Region 3 leaves the layer in the array it writes. -/
theorem region3 (c : Dev nD) :
    (dat3 (F := Ideal) V c).arrAt 5 cfg3.N
      = Cert.Spec.layer (V c main_v41) (V c main_v30) (V c main_arg9) (V c main_v42) (V c main_arg11) :=
  (dat3 (F := Ideal) V c).arrAt_eq_of_cover 5 (Cert.Spec.layer (V c main_v41) (V c main_v30) (V c main_arg9) (V c main_v42) (V c main_arg11))
    (fun t _ => flushed3 V c t) cover3

end Cert.KernelIdeal.RegionValue

end
-- ==== Proof.Region4.lean ====
/-
  Region 4 as one function of the arrays it finds: the array it writes ends holding the readout: each graph's row of
  summed node rows divided by the larger of its node count and one, a dense layer with positive part, a dense layer.
  The region has one point, whose blocks are the whole arrays.
-/
import proofs.«169739_j15650860827313_2_alg».proof.Proof.KernelIdealFrameP
import proofs.«169739_j15650860827313_2_alg».proof.Proof.RegionLemmas
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.GenP Idealize.ShloMosaic.ValueIdx

variable (V : (c : Dev nD) → (b : Ref sig .tc) → Buf (Elt Ideal) ((c : Thread nD τ).loc b))

/-- The block indices at the one point: all 0. -/
theorem idx4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- An entry of the body's stored block is the readout's entry: stated for any blocks that agree with the arrays where the
    entry reads them. -/
theorem head_block4 (Sm : S512x64.Idx → EReal) (Cn : S512x1.Idx → EReal) (W1 : S64x32.Idx → EReal)
    (B1 : S1x32.Idx → EReal) (W2 : S32x1.Idx → EReal) (B2 : S1x1.Idx → EReal)
    (x0 : Vec Ideal S512x1 .f32) (x1 : Vec Ideal S512x64 .f32) (x2 : Vec Ideal S64x32 .f32)
    (x3 : Vec Ideal S1x32 .f32) (x4 : Vec Ideal S32x1 .f32) (x5 : Vec Ideal S1x1 .f32) (y : S512x1.Idx) (i : S512x1.Idx)
    (h0 : x0 (ix2 (y 0) (0 : Fin 1)) = Cn (ix2 (i 0) (0 : Fin 1)))
    (h1 : ∀ q : Fin 64, x1 (ix2 (y 0) q) = Sm (ix2 (i 0) q))
    (h2 : ∀ (q : Fin 64) (r : Fin 32), x2 (ix2 q r) = W1 (ix2 q r))
    (h3 : ∀ r : Fin 32, x3 (ix2 (0 : Fin 1) r) = B1 (ix2 (0 : Fin 1) r))
    (h4 : ∀ r : Fin 32, x4 (ix2 r (y 1)) = W2 (ix2 r (i 1)))
    (h5 : x5 (ix2 (0 : Fin 1) (y 1)) = B2 (ix2 (0 : Fin 1) (i 1))) :
    k4_pay1 (F := Ideal) x0 x1 x2 x3 x4 x5 y
      = Cert.Spec.head (Ideal.ofBits .f32 0x3F800000#32) Sm Cn W1 B1 W2 B2 i := by
  obtain ⟨p, z, rfl⟩ : ∃ (p : Fin 512) (z : Fin 1), y = ix2 p z := ⟨y 0, y 1, eq_ix2 y⟩
  obtain ⟨g, s, rfl⟩ : ∃ (g : Fin 512) (s : Fin 1), i = ix2 g s := ⟨i 0, i 1, eq_ix2 i⟩
  rw [pay4_apply, Cert.Spec.head_apply]
  exact congrArg₂ (· + ·) (Finset.sum_congr rfl fun r _ => congrArg₂ (· * ·)
    (congrArg (max · 0) (congrArg₂ (· + ·)
      (Finset.sum_congr rfl fun q _ => congrArg₂ (· * ·) (congrArg₂ Ideal.div (h1 q) (congrArg (max · _) h0)) (h2 q r))
      (h3 r)))
    (h4 r)) h5

/-- What the one point writes back is the readout, read through its block (the whole array). -/
theorem flushed4 (c : Dev nD) (t : Fin cfg4.N) :
    (dat4 (F := Ideal) V c).flushed 6 t
      = ((cfg4.win 6).blk t).view.read (Elt Ideal)
          (Cert.Spec.head (Ideal.ofBits .f32 0x3F800000#32) (V c main_v47) (V c main_v51) (V c main_arg12) (V c main_v52)
            (V c main_arg14) (V c main_v53)) := by
  show (cfg4.win 6).cut (grid4.coords t) ((dat4 V c).after 6 t) = _
  rw [after4_6]
  unfold out4_6
  rw [View.canon_unit_zero off_zero]
  simp only [View.ld_unit_zero (S := S512x1) off_zero, View.ld_unit_zero (S := S512x64) off_zero,
    View.ld_unit_zero (S := S64x32) off_zero, View.ld_unit_zero (S := S1x32) off_zero,
    View.ld_unit_zero (S := S32x1) off_zero, View.ld_unit_zero (S := S1x1) off_zero]
  obtain ⟨e0, e1, e2, e3, e4, e5, e6, e7, e8, e9, e10, e11, e12, e13⟩ := idx4 t
  funext y
  show k4_pay1 (F := Ideal) (iblk4 V c 1 t) (iblk4 V c 0 t) (iblk4 V c 2 t) (iblk4 V c 3 t) (iblk4 V c 4 t) (iblk4 V c 5 t) y
    = Cert.Spec.head (Ideal.ofBits .f32 0x3F800000#32) (V c main_v47) (V c main_v51) (V c main_arg12) (V c main_v52)
        (V c main_arg14) (V c main_v53) (((cfg4.win 6).blk t).view.emb y)
  refine head_block4 _ _ _ _ _ _ _ _ _ _ _ _ y _ ?_ (fun q => ?_) (fun q r => ?_) (fun r => ?_) (fun r => ?_) ?_
  · show V c main_v51 (((cfg4.win 1).blk t).view.emb (ix2 (y 0) (0 : Fin 1))) = V c main_v51 _
    refine congrArg _ (funext fun a => Fin.ext ?_)
    match a with
    | ⟨0, _⟩ => show win4_1.index t (0 : Fin 2) * 512 + 1 * (y 0).val = win4_6.index t (0 : Fin 2) * 512 + 1 * (y 0).val; omega
    | ⟨1, _⟩ => show win4_1.index t (1 : Fin 2) * 1 + 1 * 0 = 0; omega
  · show V c main_v47 (((cfg4.win 0).blk t).view.emb (ix2 (y 0) q)) = V c main_v47 _
    refine congrArg _ (funext fun a => Fin.ext ?_)
    match a with
    | ⟨0, _⟩ => show win4_0.index t (0 : Fin 2) * 512 + 1 * (y 0).val = win4_6.index t (0 : Fin 2) * 512 + 1 * (y 0).val; omega
    | ⟨1, _⟩ => show win4_0.index t (1 : Fin 2) * 64 + 1 * q.val = q.val; omega
  · show V c main_arg12 (((cfg4.win 2).blk t).view.emb (ix2 q r)) = V c main_arg12 _
    refine congrArg _ (funext fun a => Fin.ext ?_)
    match a with
    | ⟨0, _⟩ => show win4_2.index t (0 : Fin 2) * 64 + 1 * q.val = q.val; omega
    | ⟨1, _⟩ => show win4_2.index t (1 : Fin 2) * 32 + 1 * r.val = r.val; omega
  · show V c main_v52 (((cfg4.win 3).blk t).view.emb (ix2 (0 : Fin 1) r)) = V c main_v52 _
    refine congrArg _ (funext fun a => Fin.ext ?_)
    match a with
    | ⟨0, _⟩ => show win4_3.index t (0 : Fin 2) * 1 + 1 * 0 = 0; omega
    | ⟨1, _⟩ => show win4_3.index t (1 : Fin 2) * 32 + 1 * r.val = r.val; omega
  · show V c main_arg14 (((cfg4.win 4).blk t).view.emb (ix2 r (y 1))) = V c main_arg14 _
    refine congrArg _ (funext fun a => Fin.ext ?_)
    match a with
    | ⟨0, _⟩ => show win4_4.index t (0 : Fin 2) * 32 + 1 * r.val = r.val; omega
    | ⟨1, _⟩ => show win4_4.index t (1 : Fin 2) * 1 + 1 * (y 1).val = win4_6.index t (1 : Fin 2) * 1 + 1 * (y 1).val; omega
  · show V c main_v53 (((cfg4.win 5).blk t).view.emb (ix2 (0 : Fin 1) (y 1))) = V c main_v53 _
    refine congrArg _ (funext fun a => Fin.ext ?_)
    match a with
    | ⟨0, _⟩ => show win4_5.index t (0 : Fin 2) * 1 + 1 * 0 = 0; omega
    | ⟨1, _⟩ => show win4_5.index t (1 : Fin 2) * 1 + 1 * (y 1).val = win4_6.index t (1 : Fin 2) * 1 + 1 * (y 1).val; omega

/-- An index of the array is in the point's block iff each coordinate is in the block's range on its axis. -/
theorem mem_blk4 (t : Fin cfg4.N) (i : S512x1.Idx) :
    i ∈ ((cfg4.win 6).blk t).view.set
      ↔ ∀ a : Fin 2, win4_6.index t a * S512x1.size a ≤ (i a).val ∧ (i a).val < win4_6.index t a * S512x1.size a + S512x1.size a := by
  show i ∈ ((View.whole main_v54).slice (win4_6.rect t)).set ↔ _
  rw [View.set_slice_whole, Rect.mem_set_unit]
  exact Iff.rfl

/-- Every index of the array is in the one point's block. -/
theorem cover4 (i : S512x1.Idx) : ∃ t : Fin cfg4.N, (cfg4.win 6).flush t = true ∧ i ∈ ((cfg4.win 6).blk t).view.set := by
  have hi0 : (i 0).val < 512 := (i 0).isLt
  have hi1 : (i 1).val < 1 := (i 1).isLt
  have hN : cfg4.N = 1 := N_4
  let t : Fin cfg4.N := ⟨0, by rw [hN]; omega⟩
  obtain ⟨-, -, -, -, -, -, -, -, -, -, -, -, e12, e13⟩ := idx4 t
  refine ⟨t, flush4_6 t, ?_⟩
  rw [mem_blk4]
  intro a
  match a with
  | ⟨0, _⟩ => show win4_6.index t (0 : Fin 2) * 512 ≤ (i 0).val ∧ (i 0).val < win4_6.index t (0 : Fin 2) * 512 + 512; omega
  | ⟨1, _⟩ => show win4_6.index t (1 : Fin 2) * 1 ≤ (i 1).val ∧ (i 1).val < win4_6.index t (1 : Fin 2) * 1 + 1; omega

/-- Region 4 leaves the readout in the array it writes. -/
theorem region4 (c : Dev nD) :
    (dat4 (F := Ideal) V c).arrAt 6 cfg4.N
      = Cert.Spec.head (Ideal.ofBits .f32 0x3F800000#32) (V c main_v47) (V c main_v51) (V c main_arg12) (V c main_v52)
          (V c main_arg14) (V c main_v53) :=
  (dat4 (F := Ideal) V c).arrAt_eq_of_cover 6
    (Cert.Spec.head (Ideal.ofBits .f32 0x3F800000#32) (V c main_v47) (V c main_v51) (V c main_arg12) (V c main_v52)
      (V c main_arg14) (V c main_v53))
    (fun t _ => flushed4 V c t) cover4

end Cert.KernelIdeal.RegionValue

end
-- ==== Proof.KernelValue.lean ====
/-
  The idealized kernel program's result as a function of its argument arrays.

  Boundary by boundary: region 0 leaves X·W_rel1; the next stretch sums its rows along the edges and region 1
  leaves the first layer's output; two more stretches and regions leave the second and third layers' outputs, each a
  function of the previous one and of the edge endpoints, which no stretch or region in between touches; the last
  stretch sums rows and counts nodes per graph, region 4 applies the readout, and the closing reshape drops the
  unit axis.
-/
import proofs.«169739_j15650860827313_2_alg».proof.Proof.KernelKeeps
import proofs.«169739_j15650860827313_2_alg».proof.Proof.KernelStretch
import proofs.«169739_j15650860827313_2_alg».proof.Proof.KernelFn
import proofs.«169739_j15650860827313_2_alg».proof.Proof.Region0
import proofs.«169739_j15650860827313_2_alg».proof.Proof.Region1
import proofs.«169739_j15650860827313_2_alg».proof.Proof.Region2
import proofs.«169739_j15650860827313_2_alg».proof.Proof.Region3
import proofs.«169739_j15650860827313_2_alg».proof.Proof.Region4

set_option maxRecDepth 16384

noncomputable section

namespace Cert.KernelIdeal.KernelValue

open Cert.KernelIdeal Cert.KernelIdeal.Gen Cert.KernelIdeal.GenP Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg)

open Cert.KernelIdeal.RegionValue

/-- The edge endpoints, at any boundary up to the third region's entry, are the two rows of the edge array. -/
theorem src_at (c : Dev nD) : W1 m ρ c (Proc.devRef .tc main_v1) = Fn.srcOf (m ((c : Thread nD τ).loc main_arg1)) := src_1 m ρ c
theorem dst_at (c : Dev nD) : W1 m ρ c (Proc.devRef .tc main_v3) = Fn.dstOf (m ((c : Thread nD τ).loc main_arg1)) := dst_1 m ρ c

/-- Region 0 leaves X·W_rel1. -/
theorem hr1_2 (c : Dev nD) : W2 m ρ c (Proc.devRef .tc main_v4) = Cert.Spec.mm (m ((c : Thread nD τ).loc main_arg0)) (m ((c : Thread nD τ).loc main_arg3)) := by
  have a0 : V1 m ρ c main_arg0 = (m ((c : Thread nD τ).loc main_arg0)) := keep_arg0_1_m m ρ c
  have a3 : V1 m ρ c main_arg3 = (m ((c : Thread nD τ).loc main_arg3)) := keep_arg3_1_m m ρ c
  refine (W2_arr m ρ c 2).trans ((region0 (V1 m ρ) c).trans ?_)
  rw [a0, a3]

/-- Region 1 leaves the first layer's output. -/
theorem h1_4 (c : Dev nD) : W4 m ρ c (Proc.devRef .tc main_v17) = Fn.h1 (m ((c : Thread nD τ).loc main_arg0)) (m ((c : Thread nD τ).loc main_arg1)) (m ((c : Thread nD τ).loc main_arg3)) (m ((c : Thread nD τ).loc main_arg4)) (m ((c : Thread nD τ).loc main_arg5)) := by
  have a0 : V3 m ρ c main_arg0 = (m ((c : Thread nD τ).loc main_arg0)) := keep_arg0_3_m m ρ c
  have a5 : V3 m ρ c main_arg5 = (m ((c : Thread nD τ).loc main_arg5)) := keep_arg5_3_m m ρ c
  have a16 : V3 m ρ c main_v16 = Fn.row64 (m ((c : Thread nD τ).loc main_arg4)) := (v16_3 m ρ c).trans (congrArg Fn.row64 (keep_arg4_2_m m ρ c))
  have a15 : V3 m ρ c main_v15 = Fn.agg (Cert.Spec.mm (m ((c : Thread nD τ).loc main_arg0)) (m ((c : Thread nD τ).loc main_arg3))) (Fn.srcOf (m ((c : Thread nD τ).loc main_arg1))) (Fn.dstOf (m ((c : Thread nD τ).loc main_arg1))) := by
    refine (v15_3 m ρ c).trans ?_
    rw [hr1_2 m ρ c, keep_v1_2_1 m ρ c, keep_v3_2_1 m ρ c, src_1 m ρ c, dst_1 m ρ c]
  refine (W4_arr m ρ c 4).trans ((region1 (V3 m ρ) c).trans ?_)
  rw [a0, a5, a16, a15]
  rfl

/-- Region 2 leaves the second layer's output. -/
theorem h2_6 (c : Dev nD) : W6 m ρ c (Proc.devRef .tc main_v30) = Fn.next (Fn.h1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) := by
  have a6 : V5 m ρ c main_arg6 = (m ((c : Thread nD τ).loc main_arg6)) := keep_arg6_5_m m ρ c
  have a8 : V5 m ρ c main_arg8 = (m ((c : Thread nD τ).loc main_arg8)) := keep_arg8_5_m m ρ c
  have a17 : V5 m ρ c main_v17 = Fn.h1 (m ((c : Thread nD τ).loc main_arg0)) (m ((c : Thread nD τ).loc main_arg1)) (m ((c : Thread nD τ).loc main_arg3)) (m ((c : Thread nD τ).loc main_arg4)) (m ((c : Thread nD τ).loc main_arg5)) := (keep_v17_5_4 m ρ c).trans (h1_4 m ρ c)
  have a29 : V5 m ρ c main_v29 = Fn.row64 (m ((c : Thread nD τ).loc main_arg7)) := (v29_5 m ρ c).trans (congrArg Fn.row64 (keep_arg7_4_m m ρ c))
  have a28 : V5 m ρ c main_v28 = Fn.agg (Fn.h1 (m ((c : Thread nD τ).loc main_arg0)) (m ((c : Thread nD τ).loc main_arg1)) (m ((c : Thread nD τ).loc main_arg3)) (m ((c : Thread nD τ).loc main_arg4)) (m ((c : Thread nD τ).loc main_arg5))) (Fn.srcOf (m ((c : Thread nD τ).loc main_arg1))) (Fn.dstOf (m ((c : Thread nD τ).loc main_arg1))) := by
    refine (v28_5 m ρ c).trans ?_
    rw [h1_4 m ρ c, keep_v1_4_1 m ρ c, keep_v3_4_1 m ρ c, src_1 m ρ c, dst_1 m ρ c]
  refine (W6_arr m ρ c 5).trans ((region2 (V5 m ρ) c).trans ?_)
  rw [a6, a8, a17, a29, a28]
  rfl

/-- Region 3 leaves the third layer's output. -/
theorem h3_8 (c : Dev nD) : W8 m ρ c (Proc.devRef .tc main_v43) = Fn.next (Fn.next (Fn.h1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11)) := by
  have a9 : V7 m ρ c main_arg9 = (m ((c : Thread nD τ).loc main_arg9)) := keep_arg9_7_m m ρ c
  have a11 : V7 m ρ c main_arg11 = (m ((c : Thread nD τ).loc main_arg11)) := keep_arg11_7_m m ρ c
  have a30 : V7 m ρ c main_v30 = _ := (keep_v30_7_6 m ρ c).trans (h2_6 m ρ c)
  have a42 : V7 m ρ c main_v42 = Fn.row64 (m ((c : Thread nD τ).loc main_arg10)) := (v42_7 m ρ c).trans (congrArg Fn.row64 (keep_arg10_6_m m ρ c))
  have a41 : V7 m ρ c main_v41 = Fn.agg (Fn.next (Fn.h1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (Fn.srcOf (m ((c : Thread nD τ).loc main_arg1))) (Fn.dstOf (m ((c : Thread nD τ).loc main_arg1))) := by
    refine (v41_7 m ρ c).trans ?_
    rw [h2_6 m ρ c, keep_v1_6_1 m ρ c, keep_v3_6_1 m ρ c, src_1 m ρ c, dst_1 m ρ c]
  refine (W8_arr m ρ c 5).trans ((region3 (V7 m ρ) c).trans ?_)
  rw [a9, a11, a30, a42, a41]
  rfl

/-- The program's result: the readout of the third layer's output. -/
theorem value (c : Dev nD) : W11 m ρ c (Proc.devRef .tc main_v55)
    = Fn.readout (Fn.next (Fn.next (Fn.h1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11)))
        (m ((c : Thread nD τ).loc main_arg2)) (m ((c : Thread nD τ).loc main_arg12)) (m ((c : Thread nD τ).loc main_arg13)) (m ((c : Thread nD τ).loc main_arg14)) (m ((c : Thread nD τ).loc main_arg15)) := by
  have a12 : V9 m ρ c main_arg12 = (m ((c : Thread nD τ).loc main_arg12)) := keep_arg12_9_m m ρ c
  have a14 : V9 m ρ c main_arg14 = (m ((c : Thread nD τ).loc main_arg14)) := keep_arg14_9_m m ρ c
  have a52 : V9 m ρ c main_v52 = Fn.row32 (m ((c : Thread nD τ).loc main_arg13)) := (v52_9 m ρ c).trans (congrArg Fn.row32 (keep_arg13_8_m m ρ c))
  have a53 : V9 m ρ c main_v53 = Fn.row1 (m ((c : Thread nD τ).loc main_arg15)) := (v53_9 m ρ c).trans (congrArg Fn.row1 (keep_arg15_8_m m ρ c))
  have a51 : V9 m ρ c main_v51 = Fn.cnts (m ((c : Thread nD τ).loc main_arg2)) := (v51_9 m ρ c).trans (congrArg Fn.cnts (keep_arg2_8_m m ρ c))
  have a47 : V9 m ρ c main_v47 = Fn.sums (Fn.next (Fn.next (Fn.h1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg1)) (m ((c : Thread nD τ).loc main_arg9)) (m ((c : Thread nD τ).loc main_arg10)) (m ((c : Thread nD τ).loc main_arg11))) (m ((c : Thread nD τ).loc main_arg2)) := by
    refine (v47_9 m ρ c).trans ?_
    rw [h3_8 m ρ c, keep_arg2_8_m m ρ c]
  have a54 : W10 m ρ c (Proc.devRef .tc main_v54) = _ := (W10_arr m ρ c 6).trans (region4 (V9 m ρ) c)
  refine (v55_11 m ρ c).trans ?_
  rw [a54, a12, a14, a52, a53, a51, a47]
  rfl

end Cert.KernelIdeal.KernelValue

end
-- ==== Proof.LibRows.lean ====
/-
  Whole rows of a matrix gathered and scatter-added, for any sizes.  A gather with one start index per result row
  (operand [N, C], start indices [E, 1], result [E, C]) reads, at (e, c), the operand at the row the e-th index names
  (read signed, clamped into [0, N - 1]) and column c.  A scatter-add with one index per update row adds, at (r, c),
  the column-c entries of exactly the update rows whose index, read signed, is r; a row whose index is outside the
  operand is dropped.  Summing gathered rows commutes with a matrix product on the right, for finite entries:
  the scatter-add into zeros of the gathered rows of X · W is (the scatter-add into zeros of the gathered rows of X) · W.
-/
import Idealize.ShloMosaic.Lib.ValueIdx
import Idealize.ShloMosaic.PureOps.Ideal
import Idealize.ShloMosaic.PureOps.Ideal.Laws
import proofs.«169739_j15650860827313_2_alg».proof.Proof.LibMatOps

noncomputable section

open scoped BigOperators

namespace Cert.LibRows

open Idealize.ShloMosaic Idealize.ShloMosaic.ValueIdx

variable {N C K E w : ℕ}

/-! ## Gathering whole rows -/

/-- The dimension numbers of a gather of whole rows: operand `[N, C]`, start indices `[E, 1]` (one row number per
    result row), result `[E, C]`; axis 0 of the operand is collapsed and indexed, axis 1 is taken whole. -/
abbrev gatherRowsDims (N C E : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row `e` reads: its start index, read signed, clamped into `[0, N - 1]`. -/
def rowAt (hN : 0 < N) (idx : IVec ⟨2, ![E, 1]⟩ w) (e : Fin E) : Fin N :=
  ⟨min (idx (ix2 e (0 : Fin 1))).toInt.toNat (N - 1), by omega⟩

/-- The gather read at `(e, c)`: the operand at row `rowAt e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N C E wf) x idx (ix2 e c) = x (ix2 (rowAt hN idx e) c) := by
  unfold Host.gather
  congr 1
  have h0 : (gatherRowsDims N C E wf).start (ix2 e c) idx (0 : Fin 2)
      + (gatherRowsDims N C E wf).batchCoord (ix2 e c) (0 : Fin 2)
      + (gatherRowsDims N C E wf).offCoord (ix2 e c) (0 : Fin 2) = (rowAt hN idx e).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gatherRowsDims N C E wf).startIndexMap from List.mem_singleton.mpr rfl)]
    have hsi : (gatherRowsDims N C E wf).siIdx (ix2 e c)
        ⟨List.idxOf (0 : Fin 2) (gatherRowsDims N C E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gatherRowsDims N C E wf).start (ix2 e c) idx (1 : Fin 2)
      + (gatherRowsDims N C E wf).batchCoord (ix2 e c) (1 : Fin 2)
      + (gatherRowsDims N C E wf).offCoord (ix2 e c) (1 : Fin 2) = c.val := by
    have hstart : (gatherRowsDims N C E wf).start (ix2 e c) idx (1 : Fin 2) = 0 := by
      unfold GatherDims.start
      rw [dif_neg (show (1 : Fin 2) ∉ (gatherRowsDims N C E wf).startIndexMap from
        (by decide : (1 : Fin 2) ∉ [(0 : Fin 2)]))]
    have hoff : (gatherRowsDims N C E wf).offCoord (ix2 e c) (1 : Fin 2) = c.val := by
      unfold GatherDims.offCoord
      rw [dif_pos (show (1 : Fin 2) ∈ (gatherRowsDims N C E wf).sKept from
        (by decide : (1 : Fin 2) ∈ (List.finRange 2).filter (· ∉ ([(0 : Fin 2)] ++ []))))]
      rfl
    rw [GatherDims.batchCoord_eq_zero _ _ _ List.not_mem_nil, hstart, hoff]; omega
  funext a
  refine Fin.ext ?_
  match a with
  | ⟨0, _⟩ => exact h0
  | ⟨1, _⟩ => exact h1

/-! ## Scatter-adding whole rows -/

/-- The dimension numbers of a scatter of whole rows: operand `[N, C]`, scatter indices `[E, 1]` (one row number per
    update row), updates `[E, C]`; update row `e` goes, whole, to the operand row its index names. -/
abbrev scatterRowsDims (N C E : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update element `(e, c')` lands on `(r, c)` exactly when row `e`'s index, read signed, is `r` and `c' = c`. -/
theorem resultIdx_rows_iff (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (scatterRowsDims N C E wf).resultIdx? (ix2 e c') idx = some (ix2 r c)
      ↔ (idx (ix2 e (0 : Fin 1))).toInt = (r.val : ℤ) ∧ c' = c := by
  have hs0 : (scatterRowsDims N C E wf).start (ix2 e c') idx (0 : Fin 2) = (idx (ix2 e (0 : Fin 1))).toInt := by
    unfold ScatterDims.start
    rw [dif_pos (show (0 : Fin 2) ∈ (scatterRowsDims N C E wf).scatterDimsToOperandDims from
      List.mem_singleton.mpr rfl)]
    have hsi : (scatterRowsDims N C E wf).siIdx (ix2 e c')
        ⟨List.idxOf (0 : Fin 2) (scatterRowsDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scatterRowsDims N C E wf).start (ix2 e c') idx (1 : Fin 2) = 0 := by
    unfold ScatterDims.start
    rw [dif_neg (show (1 : Fin 2) ∉ (scatterRowsDims N C E wf).scatterDimsToOperandDims from
      (by decide : (1 : Fin 2) ∉ [(0 : Fin 2)]))]
  have hw0 : (scatterRowsDims N C E wf).window (ix2 e c') (0 : Fin 2) = 0 := by
    unfold ScatterDims.window
    rw [dif_neg (show (0 : Fin 2) ∉ (scatterRowsDims N C E wf).sKept from
      (by decide : (0 : Fin 2) ∉ (List.finRange 2).filter (· ∉ [(0 : Fin 2)])))]
  have hw1 : (scatterRowsDims N C E wf).window (ix2 e c') (1 : Fin 2) = c'.val := by
    unfold ScatterDims.window
    rw [dif_pos (show (1 : Fin 2) ∈ (scatterRowsDims N C E wf).sKept from
      (by decide : (1 : Fin 2) ∈ (List.finRange 2).filter (· ∉ [(0 : Fin 2)])))]
    rfl
  unfold ScatterDims.resultIdx?
  constructor
  · intro h
    split at h
    · rename_i hall
      have hf := Option.some.inj h
      have h0 : ((scatterRowsDims N C E wf).start (ix2 e c') idx (0 : Fin 2)
          + ((scatterRowsDims N C E wf).window (ix2 e c') (0 : Fin 2) : ℤ)).toNat = r.val :=
        congrArg Fin.val (congrFun hf (0 : Fin 2))
      have h1 : ((scatterRowsDims N C E wf).start (ix2 e c') idx (1 : Fin 2)
          + ((scatterRowsDims N C E wf).window (ix2 e c') (1 : Fin 2) : ℤ)).toNat = c.val :=
        congrArg Fin.val (congrFun hf (1 : Fin 2))
      have ha0 := (hall (0 : Fin 2)).1
      rw [hs0, hw0] at h0 ha0
      rw [hs1, hw1] at h1
      refine ⟨by omega, Fin.ext (by omega)⟩
    · exact absurd h (by simp)
  · rintro ⟨hr, rfl⟩
    have hall : ∀ a : Fin 2, 0 ≤ (scatterRowsDims N C E wf).start (ix2 e c') idx a
          + ((scatterRowsDims N C E wf).window (ix2 e c') a : ℤ)
        ∧ (scatterRowsDims N C E wf).start (ix2 e c') idx a + ((scatterRowsDims N C E wf).window (ix2 e c') a : ℤ)
          < ((⟨2, ![N, C]⟩ : Shape).size a : ℤ) := by
      intro a
      match a with
      | ⟨0, _⟩ =>
        show 0 ≤ (scatterRowsDims N C E wf).start (ix2 e c') idx (0 : Fin 2)
            + ((scatterRowsDims N C E wf).window (ix2 e c') (0 : Fin 2) : ℤ)
          ∧ (scatterRowsDims N C E wf).start (ix2 e c') idx (0 : Fin 2)
            + ((scatterRowsDims N C E wf).window (ix2 e c') (0 : Fin 2) : ℤ) < (N : ℤ)
        rw [hs0, hw0, hr]; have := r.isLt; omega
      | ⟨1, _⟩ =>
        show 0 ≤ (scatterRowsDims N C E wf).start (ix2 e c') idx (1 : Fin 2)
            + ((scatterRowsDims N C E wf).window (ix2 e c') (1 : Fin 2) : ℤ)
          ∧ (scatterRowsDims N C E wf).start (ix2 e c') idx (1 : Fin 2)
            + ((scatterRowsDims N C E wf).window (ix2 e c') (1 : Fin 2) : ℤ) < (C : ℤ)
        rw [hs1, hw1]; have := c'.isLt; omega
    rw [dif_pos hall]
    congr 1
    funext a
    refine Fin.ext ?_
    match a with
    | ⟨0, _⟩ =>
      show ((scatterRowsDims N C E wf).start (ix2 e c') idx (0 : Fin 2)
        + ((scatterRowsDims N C E wf).window (ix2 e c') (0 : Fin 2) : ℤ)).toNat = r.val
      rw [hs0, hw0, hr]; omega
    | ⟨1, _⟩ =>
      show ((scatterRowsDims N C E wf).start (ix2 e c') idx (1 : Fin 2)
        + ((scatterRowsDims N C E wf).window (ix2 e c') (1 : Fin 2) : ℤ)).toNat = c'.val
      rw [hs1, hw1]; omega

/-- The scatter-add read at `(r, c)`: the operand's entry plus the updates' column-`c` entries of the rows whose
    index, read signed, is `r`. -/
theorem scatterRows_apply (wf : ScatterDims.WF ⟨2, ![N, C]⟩ ⟨2, ![E, 1]⟩ ⟨2, ![E, C]⟩ [1] [0] [0] 1)
    (x : Cert.Spec.Mat N C) (idx : IVec ⟨2, ![E, 1]⟩ w) (upd : Cert.Spec.Mat E C) (r : Fin N) (c : Fin C) :
    Ideal.hostScatterAdd (scatterRowsDims N C E wf) x idx upd (ix2 r c)
      = x (ix2 r c) + ∑ e ∈ Finset.univ.filter
          (fun e : Fin E => (idx (ix2 e (0 : Fin 1))).toInt = (r.val : ℤ)), upd (ix2 e c) := by
  unfold Ideal.hostScatterAdd
  congr 1
  rw [Finset.sum_filter, Finset.sum_filter, sum_idx2]
  refine Finset.sum_congr rfl fun e _ => ?_
  by_cases hP : (idx (ix2 e (0 : Fin 1))).toInt = (r.val : ℤ)
  · rw [if_pos hP, Finset.sum_eq_single c]
    · rw [if_pos ((resultIdx_rows_iff wf idx e c r c).mpr ⟨hP, rfl⟩)]
    · intro c' _ hc'
      rw [if_neg (fun h => hc' ((resultIdx_rows_iff wf idx e c' r c).mp h).2)]
    · intro h; exact absurd (Finset.mem_univ _) h
  · rw [if_neg hP]
    refine Finset.sum_eq_zero fun c' _ => ?_
    rw [if_neg (fun h => hP ((resultIdx_rows_iff wf idx e c' r c).mp h).1)]

/-! ## Aggregation commutes with a matrix product -/

/-- The coercion of the reals into the extended reals takes a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing gathered rows and multiplying by a matrix commute, for finite entries: scatter-adding, into zeros, the
    gathered rows of `X · W` is `(the scatter-add of the gathered rows of X) · W`. -/
theorem aggregate_mm (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    (X : Cert.Spec.Mat N K) (W : Cert.Spec.Mat K C)
    (hX : ∀ i, ∃ r : ℝ, X i = (r : EReal)) (hW : ∀ i, ∃ r : ℝ, W i = (r : EReal))
    (ZC : Cert.Spec.Mat N C) (ZK : Cert.Spec.Mat N K) (hZC : ∀ i, ZC i = 0) (hZK : ∀ i, ZK i = 0)
    (idxs idxd : IVec ⟨2, ![E, 1]⟩ w) :
    Ideal.hostScatterAdd (scatterRowsDims N C E wfsC) ZC idxd
        (Host.gather (gatherRowsDims N C E wfgC) (Cert.Spec.mm X W) idxs)
      = Cert.Spec.mm (Ideal.hostScatterAdd (scatterRowsDims N K E wfsK) ZK idxd
          (Host.gather (gatherRowsDims N K E wfgK) X idxs)) W := by
  funext i
  obtain ⟨r, c, rfl⟩ : ∃ (r : Fin N) (c : Fin C), i = ix2 r c := ⟨i 0, i 1, eq_ix2 i⟩
  rw [scatterRows_apply, Cert.Spec.mm_apply]
  simp only [scatterRows_apply, gatherRows_apply hN, hZC, hZK, zero_add, Cert.Spec.mm_apply]
  choose xr hxr using hX
  choose wr hwr using hW
  simp only [hxr, hwr, ← EReal.coe_mul, ← coe_sum]
  congr 1
  rw [Finset.sum_comm]
  exact Finset.sum_congr rfl fun q _ => (Finset.sum_mul _ _ _).symm

end Cert.LibRows

end
-- ==== Proof.RefSpec.lean ====
/-
  The reference's stages are the specification's functions.  Each of the reference's three layers is, entry by entry,
  the positive part of (neighbour sums · Wr + b) + (own rows · Wo): its two matrix products are sums over the shared
  axis, its bias is the one row broadcast to every row, and its final maximum is against zero.  The readout is the
  mean of each graph's summed rows (the sums divided by the larger of the graph's count and one), then a dense layer
  with a positive part, then a dense layer.
-/
import proofs.«169739_j15650860827313_2_alg».proof.Proof.Gen.ReferenceIdeal.Read
import proofs.«169739_j15650860827313_2_alg».proof.Proof.Spec

noncomputable section

open scoped BigOperators

namespace Cert.ReferenceIdeal.RefSpec

open Cert.ReferenceIdeal Cert.ReferenceIdeal.Read Idealize.ShloMosaic Idealize.ShloMosaic.ValueIdx

/-- The first layer: neighbour sums of the input rows, the input rows themselves. -/
theorem ref_h1 (x0 : (⟨S50000x128, .f32⟩ : BufTy).Contents (Elt Ideal))
    (x1 : (⟨S2x800000, .i32⟩ : BufTy).Contents (Elt Ideal))
    (x3 : (⟨S128x64, .f32⟩ : BufTy).Contents (Elt Ideal))
    (x4 : (⟨S64, .f32⟩ : BufTy).Contents (Elt Ideal))
    (x5 : (⟨S128x64, .f32⟩ : BufTy).Contents (Elt Ideal)) :
    val_main_v20 (F := Ideal) x0 x1 x3 x4 x5
      = Cert.Spec.layer (val_main_v13 (F := Ideal) x0 x1) x0 x3 (Cert.Spec.rowOf x4) x5 := by
  funext i
  obtain ⟨p, j, rfl⟩ : ∃ (p : Fin 50000) (j : Fin 64), i = ix2 p j := ⟨i 0, i 1, eq_ix2 i⟩
  rw [Cert.Spec.layer_apply, val_main_v20_apply, val_main_v19_apply, val_main_v17_apply, val_main_v14_apply,
    val_main_v16_apply, val_main_v15_apply, val_main_v18_apply, val_main_call0_v0_apply, val_main_call0_cst_apply]
  generalize val_main_v13 (F := Ideal) x0 x1 = A
  have e1 : ∀ k : Fin 128, lidx_main_v14 (ix2 p j) k = ix2 p k := fun k => funext fun a => Fin.ext (by match a with | ⟨0, _⟩ => rfl | ⟨1, _⟩ => rfl)
  have e2 : ∀ k : Fin 128, ridx_main_v14 (ix2 p j) k = ix2 k j := fun k => funext fun a => Fin.ext (by match a with | ⟨0, _⟩ => rfl | ⟨1, _⟩ => rfl)
  have e3 : ∀ k : Fin 128, lidx_main_v18 (ix2 p j) k = ix2 p k := fun k => funext fun a => Fin.ext (by match a with | ⟨0, _⟩ => rfl | ⟨1, _⟩ => rfl)
  have e4 : ∀ k : Fin 128, ridx_main_v18 (ix2 p j) k = ix2 k j := fun k => funext fun a => Fin.ext (by match a with | ⟨0, _⟩ => rfl | ⟨1, _⟩ => rfl)
  have e5 : idx_main_v15 (idx_main_v16 (ix2 p j)) = ix1 j := funext fun a => Fin.ext (by match a with | ⟨0, _⟩ => rfl)
  simp only [e1, e2, e3, e4, e5, Ideal.addf_def, Ideal.maximumf_def, Ideal.ofBits_def, Ideal.ofBits_zero_f32,
    Cert.Spec.rowOf_apply]

/-- The second layer, on the first layer's rows and their neighbour sums. -/
theorem ref_h2 (x0 : (⟨S50000x128, .f32⟩ : BufTy).Contents (Elt Ideal))
    (x1 : (⟨S2x800000, .i32⟩ : BufTy).Contents (Elt Ideal))
    (x3 : (⟨S128x64, .f32⟩ : BufTy).Contents (Elt Ideal))
    (x4 : (⟨S64, .f32⟩ : BufTy).Contents (Elt Ideal))
    (x5 : (⟨S128x64, .f32⟩ : BufTy).Contents (Elt Ideal))
    (x6 : (⟨S64x64, .f32⟩ : BufTy).Contents (Elt Ideal))
    (x7 : (⟨S64, .f32⟩ : BufTy).Contents (Elt Ideal))
    (x8 : (⟨S64x64, .f32⟩ : BufTy).Contents (Elt Ideal)) :
    val_main_v37 (F := Ideal) x0 x1 x3 x4 x5 x6 x7 x8
      = Cert.Spec.layer (val_main_v30 (F := Ideal) x0 x1 x3 x4 x5) (val_main_v20 (F := Ideal) x0 x1 x3 x4 x5) x6 (Cert.Spec.rowOf x7) x8 := by
  funext i
  obtain ⟨p, j, rfl⟩ : ∃ (p : Fin 50000) (j : Fin 64), i = ix2 p j := ⟨i 0, i 1, eq_ix2 i⟩
  rw [Cert.Spec.layer_apply, val_main_v37_apply, val_main_v36_apply, val_main_v34_apply, val_main_v31_apply,
    val_main_v33_apply, val_main_v32_apply, val_main_v35_apply, val_main_call1_v0_apply, val_main_call1_cst_apply]
  generalize val_main_v30 (F := Ideal) x0 x1 x3 x4 x5 = A
  generalize val_main_v20 (F := Ideal) x0 x1 x3 x4 x5 = H
  have e1 : ∀ k : Fin 64, lidx_main_v31 (ix2 p j) k = ix2 p k := fun k => funext fun a => Fin.ext (by match a with | ⟨0, _⟩ => rfl | ⟨1, _⟩ => rfl)
  have e2 : ∀ k : Fin 64, ridx_main_v31 (ix2 p j) k = ix2 k j := fun k => funext fun a => Fin.ext (by match a with | ⟨0, _⟩ => rfl | ⟨1, _⟩ => rfl)
  have e3 : ∀ k : Fin 64, lidx_main_v35 (ix2 p j) k = ix2 p k := fun k => funext fun a => Fin.ext (by match a with | ⟨0, _⟩ => rfl | ⟨1, _⟩ => rfl)
  have e4 : ∀ k : Fin 64, ridx_main_v35 (ix2 p j) k = ix2 k j := fun k => funext fun a => Fin.ext (by match a with | ⟨0, _⟩ => rfl | ⟨1, _⟩ => rfl)
  have e5 : idx_main_v32 (idx_main_v33 (ix2 p j)) = ix1 j := funext fun a => Fin.ext (by match a with | ⟨0, _⟩ => rfl)
  simp only [e1, e2, e3, e4, e5, Ideal.addf_def, Ideal.maximumf_def, Ideal.ofBits_def, Ideal.ofBits_zero_f32,
    Cert.Spec.rowOf_apply]

/-- The third layer, on the second layer's rows and their neighbour sums. -/
theorem ref_h3 (x0 : (⟨S50000x128, .f32⟩ : BufTy).Contents (Elt Ideal))
    (x1 : (⟨S2x800000, .i32⟩ : BufTy).Contents (Elt Ideal))
    (x3 : (⟨S128x64, .f32⟩ : BufTy).Contents (Elt Ideal))
    (x4 : (⟨S64, .f32⟩ : BufTy).Contents (Elt Ideal))
    (x5 : (⟨S128x64, .f32⟩ : BufTy).Contents (Elt Ideal))
    (x6 : (⟨S64x64, .f32⟩ : BufTy).Contents (Elt Ideal))
    (x7 : (⟨S64, .f32⟩ : BufTy).Contents (Elt Ideal))
    (x8 : (⟨S64x64, .f32⟩ : BufTy).Contents (Elt Ideal))
    (x9 : (⟨S64x64, .f32⟩ : BufTy).Contents (Elt Ideal))
    (x10 : (⟨S64, .f32⟩ : BufTy).Contents (Elt Ideal))
    (x11 : (⟨S64x64, .f32⟩ : BufTy).Contents (Elt Ideal)) :
    val_main_v54 (F := Ideal) x0 x1 x3 x4 x5 x6 x7 x8 x9 x10 x11
      = Cert.Spec.layer (val_main_v47 (F := Ideal) x0 x1 x3 x4 x5 x6 x7 x8) (val_main_v37 (F := Ideal) x0 x1 x3 x4 x5 x6 x7 x8) x9 (Cert.Spec.rowOf x10) x11 := by
  funext i
  obtain ⟨p, j, rfl⟩ : ∃ (p : Fin 50000) (j : Fin 64), i = ix2 p j := ⟨i 0, i 1, eq_ix2 i⟩
  rw [Cert.Spec.layer_apply, val_main_v54_apply, val_main_v53_apply, val_main_v51_apply, val_main_v48_apply,
    val_main_v50_apply, val_main_v49_apply, val_main_v52_apply, val_main_call2_v0_apply, val_main_call2_cst_apply]
  generalize val_main_v47 (F := Ideal) x0 x1 x3 x4 x5 x6 x7 x8 = A
  generalize val_main_v37 (F := Ideal) x0 x1 x3 x4 x5 x6 x7 x8 = H
  have e1 : ∀ k : Fin 64, lidx_main_v48 (ix2 p j) k = ix2 p k := fun k => funext fun a => Fin.ext (by match a with | ⟨0, _⟩ => rfl | ⟨1, _⟩ => rfl)
  have e2 : ∀ k : Fin 64, ridx_main_v48 (ix2 p j) k = ix2 k j := fun k => funext fun a => Fin.ext (by match a with | ⟨0, _⟩ => rfl | ⟨1, _⟩ => rfl)
  have e3 : ∀ k : Fin 64, lidx_main_v52 (ix2 p j) k = ix2 p k := fun k => funext fun a => Fin.ext (by match a with | ⟨0, _⟩ => rfl | ⟨1, _⟩ => rfl)
  have e4 : ∀ k : Fin 64, ridx_main_v52 (ix2 p j) k = ix2 k j := fun k => funext fun a => Fin.ext (by match a with | ⟨0, _⟩ => rfl | ⟨1, _⟩ => rfl)
  have e5 : idx_main_v49 (idx_main_v50 (ix2 p j)) = ix1 j := funext fun a => Fin.ext (by match a with | ⟨0, _⟩ => rfl)
  simp only [e1, e2, e3, e4, e5, Ideal.addf_def, Ideal.maximumf_def, Ideal.ofBits_def, Ideal.ofBits_zero_f32,
    Cert.Spec.rowOf_apply]

/-- The readout's first stage: each graph's summed rows divided by the larger of its count and one. -/
theorem ref_mean (x0 : (⟨S50000x128, .f32⟩ : BufTy).Contents (Elt Ideal))
    (x1 : (⟨S2x800000, .i32⟩ : BufTy).Contents (Elt Ideal))
    (x2 : (⟨S50000, .i32⟩ : BufTy).Contents (Elt Ideal))
    (x3 : (⟨S128x64, .f32⟩ : BufTy).Contents (Elt Ideal))
    (x4 : (⟨S64, .f32⟩ : BufTy).Contents (Elt Ideal))
    (x5 : (⟨S128x64, .f32⟩ : BufTy).Contents (Elt Ideal))
    (x6 : (⟨S64x64, .f32⟩ : BufTy).Contents (Elt Ideal))
    (x7 : (⟨S64, .f32⟩ : BufTy).Contents (Elt Ideal))
    (x8 : (⟨S64x64, .f32⟩ : BufTy).Contents (Elt Ideal))
    (x9 : (⟨S64x64, .f32⟩ : BufTy).Contents (Elt Ideal))
    (x10 : (⟨S64, .f32⟩ : BufTy).Contents (Elt Ideal))
    (x11 : (⟨S64x64, .f32⟩ : BufTy).Contents (Elt Ideal)) :
    val_main_v65 (F := Ideal) x0 x1 x2 x3 x4 x5 x6 x7 x8 x9 x10 x11
      = Cert.Spec.meanRows (Ideal.ofBits .f32 0x3F800000#32) (val_main_v57 (F := Ideal) x0 x1 x2 x3 x4 x5 x6 x7 x8 x9 x10 x11) (val_main_v61 (F := Ideal) x2) := by
  funext i
  obtain ⟨p, q, rfl⟩ : ∃ (p : Fin 512) (q : Fin 64), i = ix2 p q := ⟨i 0, i 1, eq_ix2 i⟩
  rw [Cert.Spec.meanRows_apply, val_main_v65_apply, val_main_v64_apply, val_main_v63_apply, val_main_v62_apply,
    val_main_cst_10_apply]
  generalize val_main_v57 (F := Ideal) x0 x1 x2 x3 x4 x5 x6 x7 x8 x9 x10 x11 = Sm
  generalize val_main_v61 (F := Ideal) x2 = Cn
  have e1 : idx_main_v64 (ix2 p q) = ix2 p (0 : Fin 1) := funext fun a => Fin.ext (by match a with | ⟨0, _⟩ => rfl | ⟨1, _⟩ => rfl)
  simp only [e1, Ideal.hostDivf_def, Ideal.maximumf_def, Ideal.ofBits_def]

/-- The readout's second stage: a dense layer with a positive part. -/
theorem ref_dense1 (x0 : (⟨S50000x128, .f32⟩ : BufTy).Contents (Elt Ideal))
    (x1 : (⟨S2x800000, .i32⟩ : BufTy).Contents (Elt Ideal))
    (x2 : (⟨S50000, .i32⟩ : BufTy).Contents (Elt Ideal))
    (x3 : (⟨S128x64, .f32⟩ : BufTy).Contents (Elt Ideal))
    (x4 : (⟨S64, .f32⟩ : BufTy).Contents (Elt Ideal))
    (x5 : (⟨S128x64, .f32⟩ : BufTy).Contents (Elt Ideal))
    (x6 : (⟨S64x64, .f32⟩ : BufTy).Contents (Elt Ideal))
    (x7 : (⟨S64, .f32⟩ : BufTy).Contents (Elt Ideal))
    (x8 : (⟨S64x64, .f32⟩ : BufTy).Contents (Elt Ideal))
    (x9 : (⟨S64x64, .f32⟩ : BufTy).Contents (Elt Ideal))
    (x10 : (⟨S64, .f32⟩ : BufTy).Contents (Elt Ideal))
    (x11 : (⟨S64x64, .f32⟩ : BufTy).Contents (Elt Ideal))
    (x12 : (⟨S64x32, .f32⟩ : BufTy).Contents (Elt Ideal))
    (x13 : (⟨S32, .f32⟩ : BufTy).Contents (Elt Ideal)) :
    val_main_v70 (F := Ideal) x0 x1 x2 x3 x4 x5 x6 x7 x8 x9 x10 x11 x12 x13
      = Cert.Spec.relu (Cert.Spec.addRow (Cert.Spec.mm (val_main_v65 (F := Ideal) x0 x1 x2 x3 x4 x5 x6 x7 x8 x9 x10 x11) x12) (Cert.Spec.rowOf x13)) := by
  funext i
  obtain ⟨p, r, rfl⟩ : ∃ (p : Fin 512) (r : Fin 32), i = ix2 p r := ⟨i 0, i 1, eq_ix2 i⟩
  rw [Cert.Spec.relu_apply, Cert.Spec.addRow_apply, Cert.Spec.mm_apply, val_main_v70_apply, val_main_v69_apply,
    val_main_v66_apply, val_main_v68_apply, val_main_v67_apply, val_main_call3_v0_apply, val_main_call3_cst_apply]
  generalize val_main_v65 (F := Ideal) x0 x1 x2 x3 x4 x5 x6 x7 x8 x9 x10 x11 = M
  have e1 : ∀ k : Fin 64, lidx_main_v66 (ix2 p r) k = ix2 p k := fun k => funext fun a => Fin.ext (by match a with | ⟨0, _⟩ => rfl | ⟨1, _⟩ => rfl)
  have e2 : ∀ k : Fin 64, ridx_main_v66 (ix2 p r) k = ix2 k r := fun k => funext fun a => Fin.ext (by match a with | ⟨0, _⟩ => rfl | ⟨1, _⟩ => rfl)
  have e3 : idx_main_v67 (idx_main_v68 (ix2 p r)) = ix1 r := funext fun a => Fin.ext (by match a with | ⟨0, _⟩ => rfl)
  simp only [e1, e2, e3, Ideal.addf_def, Ideal.maximumf_def, Ideal.ofBits_def, Ideal.ofBits_zero_f32,
    Cert.Spec.rowOf_apply]

/-- The readout's last stage: a dense layer. -/
theorem ref_dense2 (x0 : (⟨S50000x128, .f32⟩ : BufTy).Contents (Elt Ideal))
    (x1 : (⟨S2x800000, .i32⟩ : BufTy).Contents (Elt Ideal))
    (x2 : (⟨S50000, .i32⟩ : BufTy).Contents (Elt Ideal))
    (x3 : (⟨S128x64, .f32⟩ : BufTy).Contents (Elt Ideal))
    (x4 : (⟨S64, .f32⟩ : BufTy).Contents (Elt Ideal))
    (x5 : (⟨S128x64, .f32⟩ : BufTy).Contents (Elt Ideal))
    (x6 : (⟨S64x64, .f32⟩ : BufTy).Contents (Elt Ideal))
    (x7 : (⟨S64, .f32⟩ : BufTy).Contents (Elt Ideal))
    (x8 : (⟨S64x64, .f32⟩ : BufTy).Contents (Elt Ideal))
    (x9 : (⟨S64x64, .f32⟩ : BufTy).Contents (Elt Ideal))
    (x10 : (⟨S64, .f32⟩ : BufTy).Contents (Elt Ideal))
    (x11 : (⟨S64x64, .f32⟩ : BufTy).Contents (Elt Ideal))
    (x12 : (⟨S64x32, .f32⟩ : BufTy).Contents (Elt Ideal))
    (x13 : (⟨S32, .f32⟩ : BufTy).Contents (Elt Ideal))
    (x14 : (⟨S32x1, .f32⟩ : BufTy).Contents (Elt Ideal))
    (x15 : (⟨S1, .f32⟩ : BufTy).Contents (Elt Ideal)) :
    val_main_v74 (F := Ideal) x0 x1 x2 x3 x4 x5 x6 x7 x8 x9 x10 x11 x12 x13 x14 x15
      = Cert.Spec.addRow (Cert.Spec.mm (val_main_v70 (F := Ideal) x0 x1 x2 x3 x4 x5 x6 x7 x8 x9 x10 x11 x12 x13) x14) (Cert.Spec.rowOf x15) := by
  funext i
  obtain ⟨p, z, rfl⟩ : ∃ (p : Fin 512) (z : Fin 1), i = ix2 p z := ⟨i 0, i 1, eq_ix2 i⟩
  obtain rfl : z = 0 := Subsingleton.elim _ _
  rw [Cert.Spec.addRow_apply, Cert.Spec.mm_apply, val_main_v74_apply, val_main_v71_apply, val_main_v73_apply,
    val_main_v72_apply]
  generalize val_main_v70 (F := Ideal) x0 x1 x2 x3 x4 x5 x6 x7 x8 x9 x10 x11 x12 x13 = R
  have e1 : ∀ k : Fin 32, lidx_main_v71 (ix2 p (0 : Fin 1)) k = ix2 p k := fun k => funext fun a => Fin.ext (by match a with | ⟨0, _⟩ => rfl | ⟨1, _⟩ => rfl)
  have e2 : ∀ k : Fin 32, ridx_main_v71 (ix2 p (0 : Fin 1)) k = ix2 k (0 : Fin 1) := fun k => funext fun a => Fin.ext (by match a with | ⟨0, _⟩ => rfl | ⟨1, _⟩ => rfl)
  have e3 : idx_main_v72 (idx_main_v73 (ix2 p (0 : Fin 1))) = ix1 (0 : Fin 1) := funext fun a => Fin.ext (by match a with | ⟨0, _⟩ => rfl)
  simp only [e1, e2, e3, Ideal.addf_def, Cert.Spec.rowOf_apply]

/-- The readout: the three stages are the specification's head. -/
theorem ref_out (x0 : (⟨S50000x128, .f32⟩ : BufTy).Contents (Elt Ideal))
    (x1 : (⟨S2x800000, .i32⟩ : BufTy).Contents (Elt Ideal))
    (x2 : (⟨S50000, .i32⟩ : BufTy).Contents (Elt Ideal))
    (x3 : (⟨S128x64, .f32⟩ : BufTy).Contents (Elt Ideal))
    (x4 : (⟨S64, .f32⟩ : BufTy).Contents (Elt Ideal))
    (x5 : (⟨S128x64, .f32⟩ : BufTy).Contents (Elt Ideal))
    (x6 : (⟨S64x64, .f32⟩ : BufTy).Contents (Elt Ideal))
    (x7 : (⟨S64, .f32⟩ : BufTy).Contents (Elt Ideal))
    (x8 : (⟨S64x64, .f32⟩ : BufTy).Contents (Elt Ideal))
    (x9 : (⟨S64x64, .f32⟩ : BufTy).Contents (Elt Ideal))
    (x10 : (⟨S64, .f32⟩ : BufTy).Contents (Elt Ideal))
    (x11 : (⟨S64x64, .f32⟩ : BufTy).Contents (Elt Ideal))
    (x12 : (⟨S64x32, .f32⟩ : BufTy).Contents (Elt Ideal))
    (x13 : (⟨S32, .f32⟩ : BufTy).Contents (Elt Ideal))
    (x14 : (⟨S32x1, .f32⟩ : BufTy).Contents (Elt Ideal))
    (x15 : (⟨S1, .f32⟩ : BufTy).Contents (Elt Ideal)) :
    val_main_v74 (F := Ideal) x0 x1 x2 x3 x4 x5 x6 x7 x8 x9 x10 x11 x12 x13 x14 x15
      = Cert.Spec.head (Ideal.ofBits .f32 0x3F800000#32) (val_main_v57 (F := Ideal) x0 x1 x2 x3 x4 x5 x6 x7 x8 x9 x10 x11) (val_main_v61 (F := Ideal) x2) x12
          (Cert.Spec.rowOf x13) x14 (Cert.Spec.rowOf x15) := by
  rw [ref_dense2, ref_dense1, ref_mean]
  rfl

end Cert.ReferenceIdeal.RefSpec

end
-- ==== Proof.RowForms.lean ====
/-
  A vector reshaped to one row is the vector as a one-row matrix: the reshape of a length-d vector to shape [1, d],
  read at (0, j), is the vector at j.
-/
import proofs.«169739_j15650860827313_2_alg».proof.Proof.KernelFn
import proofs.«169739_j15650860827313_2_alg».proof.Proof.Spec
import Idealize.ShloMosaic.Lib.Pipeline.Value
import Idealize.ShloMosaic.Lib.ValueLayout

noncomputable section

namespace Cert.KernelIdeal.RowForms

open Cert.KernelIdeal Idealize.ShloMosaic Idealize.ShloMosaic.ValueIdx

/-- A length-64 vector reshaped to [1, 64] is its one-row matrix. -/
theorem row64_eq (b : (⟨S64, .f32⟩ : BufTy).Contents (Elt Ideal)) :
    Cert.KernelIdeal.Fn.row64 b = Cert.Spec.rowOf b := by
  funext i
  unfold Cert.KernelIdeal.Fn.row64 Cert.Spec.rowOf
  rw [shapeCast_addUnit_apply]
  congr 1
  funext a
  match a with
  | ⟨0, _⟩ => rfl

/-- A length-32 vector reshaped to [1, 32] is its one-row matrix. -/
theorem row32_eq (b : (⟨S32, .f32⟩ : BufTy).Contents (Elt Ideal)) :
    Cert.KernelIdeal.Fn.row32 b = Cert.Spec.rowOf b := by
  funext i
  unfold Cert.KernelIdeal.Fn.row32 Cert.Spec.rowOf
  rw [shapeCast_addUnit_apply]
  congr 1
  funext a
  match a with
  | ⟨0, _⟩ => rfl

/-- A length-1 vector reshaped to [1, 1] is its one-row matrix. -/
theorem row1_eq (b : (⟨S1, .f32⟩ : BufTy).Contents (Elt Ideal)) :
    Cert.KernelIdeal.Fn.row1 b = Cert.Spec.rowOf b := by
  funext i
  unfold Cert.KernelIdeal.Fn.row1 Cert.Spec.rowOf
  rw [shapeCast_addUnit_apply]
  congr 1
  funext a
  match a with
  | ⟨0, _⟩ => rfl

end Cert.KernelIdeal.RowForms

end
-- ==== Proof.Bridge.lean ====
/-
  The idealized kernel program and the reference compute one function.

  Layer by layer. In the first layer the kernel program sums the neighbours' rows of X·W_rel1 where the reference
  multiplies the summed rows of X by W_rel1: for finite entries these agree (a finite sum of products with a fixed
  factor is the product of the sum), and the rest of the layer is the same expression. The second and third layers and
  the readout are the same expressions of equal arrays: the neighbour sums and the per-graph sums and counts are the
  same gather and scatter-add of the same edge endpoints and graph numbers, a change of float format is the identity,
  and a bias vector reshaped to one row is the vector broadcast to one row.
-/
import proofs.«169739_j15650860827313_2_alg».proof.Proof.KernelFn
import proofs.«169739_j15650860827313_2_alg».proof.Proof.LibRows
import proofs.«169739_j15650860827313_2_alg».proof.Proof.RefSpec
import proofs.«169739_j15650860827313_2_alg».proof.Proof.RowForms
import proofs.«169739_j15650860827313_2_alg».proof.Proof.Gen.ReferenceIdeal.Read
import Idealize.ShloMosaic.Lib.Pipeline.Value

noncomputable section

namespace Cert.Bridge

open Idealize.ShloMosaic Idealize.ShloMosaic.ValueIdx

/-- The zero array that a scatter-add starts from is zero at every index. -/
theorem zero_bcast {s : Shape} (pf) (i : s.Idx) :
    broadcastInDim s ![] pf (constant (F := Ideal) (⟨0, ![]⟩ : Shape) .f32 0x00000000#32) i = (0 : EReal) := by
  refine (broadcastInDim_apply _ pf _ i ix0 (fun a => a.elim0)).trans ?_
  show Ideal.ofBits .f32 0x00000000#32 = 0
  exact Ideal.ofBits_zero_f32

theorem kG64 : Cert.KernelIdeal.gather_S50000x64_S800000x1_S800000x64_1_0_n_n_0_1_164
    = Cert.LibRows.gatherRowsDims 50000 64 800000 Cert.KernelIdeal.gather_S50000x64_S800000x1_S800000x64_1_0_n_n_0_1_164.wf := rfl
theorem kS64 : Cert.KernelIdeal.scatter_S50000x64_S800000x1_S800000x64_1_0_0_1
    = Cert.LibRows.scatterRowsDims 50000 64 800000 Cert.KernelIdeal.scatter_S50000x64_S800000x1_S800000x64_1_0_0_1.wf := rfl
theorem rG128 : Cert.ReferenceIdeal.gather_S50000x128_S800000x1_S800000x128_1_0_n_n_0_1_1128
    = Cert.LibRows.gatherRowsDims 50000 128 800000 Cert.ReferenceIdeal.gather_S50000x128_S800000x1_S800000x128_1_0_n_n_0_1_1128.wf := rfl
theorem rS128 : Cert.ReferenceIdeal.scatter_S50000x128_S800000x1_S800000x128_1_0_0_1
    = Cert.LibRows.scatterRowsDims 50000 128 800000 Cert.ReferenceIdeal.scatter_S50000x128_S800000x1_S800000x128_1_0_0_1.wf := rfl

theorem idx_src (x1 : (⟨Cert.ReferenceIdeal.S2x800000, .i32⟩ : BufTy).Contents (Elt Ideal)) :
    Cert.ReferenceIdeal.Read.val_main_v9 (F := Ideal) x1 = Cert.KernelIdeal.Fn.startOf (Cert.KernelIdeal.Fn.srcOf x1) := rfl
theorem idx_dst (x1 : (⟨Cert.ReferenceIdeal.S2x800000, .i32⟩ : BufTy).Contents (Elt Ideal)) :
    Cert.ReferenceIdeal.Read.val_main_v12 (F := Ideal) x1
      = broadcastInDim Cert.KernelIdeal.S800000x1 ![0] Cert.KernelIdeal.Facts₀.bcast_S800000_S800000x1_0 (Cert.KernelIdeal.Fn.dstOf x1) := rfl

/-- A change of float format is the identity on extended reals. -/
theorem extf_id {s : Shape} (x : FVec Ideal s .bf16) (pf) : extf .f32 x pf = x := rfl

set_option maxHeartbeats 1000000 in
/-- The neighbour sums of the rows of X·W are the neighbour sums of the rows of X, times W. -/
theorem agg_mm_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal))
    (hx0 : ∀ i, ∃ r : ℝ, x0 i = (r : EReal)) (hx3 : ∀ i, ∃ r : ℝ, x3 i = (r : EReal)) :
    Cert.KernelIdeal.Fn.agg (Cert.Spec.mm x0 x3) (Cert.KernelIdeal.Fn.srcOf x1) (Cert.KernelIdeal.Fn.dstOf x1)
      = Cert.Spec.mm (Cert.ReferenceIdeal.Read.val_main_v13 (F := Ideal) x0 x1) x3 := by
  unfold Cert.KernelIdeal.Fn.agg Cert.ReferenceIdeal.Read.val_main_v13 Cert.ReferenceIdeal.Read.val_main_v10
  rw [idx_src, idx_dst, extf_id, kG64, kS64, rG128, rS128]
  exact Cert.LibRows.aggregate_mm (N := 50000) (C := 64) (K := 128) (E := 800000) (w := 32) (by decide) _ _ _ _
    x0 x3 hx0 hx3 _ _ (fun i => zero_bcast _ i) (fun i => zero_bcast _ i) _ _

/-- A layer on neighbour sums A is the layer on the pre-multiplied sums A·Wr. -/
theorem layer_pre {n k k' d : ℕ} (A : Cert.Spec.Mat n k) (H : Cert.Spec.Mat n k') (Wr : Cert.Spec.Mat k d) (B : Cert.Spec.Mat 1 d)
    (Wo : Cert.Spec.Mat k' d) : Cert.Spec.layer A H Wr B Wo = Cert.Spec.layerPre (Cert.Spec.mm A Wr) H B Wo := rfl

/-- The first layers agree. -/
theorem h1_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S128x64, .f32⟩ : BufTy).Contents (Elt Ideal)) (hx0 : ∀ i, ∃ r : ℝ, x0 i = (r : EReal)) (hx3 : ∀ i, ∃ r : ℝ, x3 i = (r : EReal)) :
    Cert.ReferenceIdeal.Read.val_main_v20 (F := Ideal) x0 x1 x3 x4 x5 = Cert.KernelIdeal.Fn.h1 x0 x1 x3 x4 x5 := by
  rw [Cert.ReferenceIdeal.RefSpec.ref_h1, layer_pre]
  unfold Cert.KernelIdeal.Fn.h1
  rw [agg_mm_eq x0 x1 x3 hx0 hx3, Cert.KernelIdeal.RowForms.row64_eq]

/-- The reference's second neighbour sum is the kernel program's, of any array. -/
theorem agg2_eq (h : (⟨Cert.ReferenceIdeal.S50000x64, .f32⟩ : BufTy).Contents (Elt Ideal)) (x1 : (⟨Cert.ReferenceIdeal.S2x800000, .i32⟩ : BufTy).Contents (Elt Ideal)) :
    Host.scatterAdd (F := Ideal) (φ := .f32) Cert.ReferenceIdeal.scatter_S50000x64_S800000x1_S800000x64_1_0_0_1 (Cert.ReferenceIdeal.Read.val_main_v28 (F := Ideal))
        (Cert.ReferenceIdeal.Read.val_main_v29 (F := Ideal) x1)
        (Host.gather Cert.ReferenceIdeal.gather_S50000x64_S800000x1_S800000x64_1_0_n_n_0_1_164 h (Cert.ReferenceIdeal.Read.val_main_v26 (F := Ideal) x1))
      = Cert.KernelIdeal.Fn.agg h (Cert.KernelIdeal.Fn.srcOf x1) (Cert.KernelIdeal.Fn.dstOf x1) := rfl

/-- The reference's third neighbour sum is the kernel program's, of any array. -/
theorem agg3_eq (h : (⟨Cert.ReferenceIdeal.S50000x64, .f32⟩ : BufTy).Contents (Elt Ideal)) (x1 : (⟨Cert.ReferenceIdeal.S2x800000, .i32⟩ : BufTy).Contents (Elt Ideal)) :
    Host.scatterAdd (F := Ideal) (φ := .f32) Cert.ReferenceIdeal.scatter_S50000x64_S800000x1_S800000x64_1_0_0_1 (Cert.ReferenceIdeal.Read.val_main_v45 (F := Ideal))
        (Cert.ReferenceIdeal.Read.val_main_v46 (F := Ideal) x1)
        (Host.gather Cert.ReferenceIdeal.gather_S50000x64_S800000x1_S800000x64_1_0_n_n_0_1_164 h (Cert.ReferenceIdeal.Read.val_main_v43 (F := Ideal) x1))
      = Cert.KernelIdeal.Fn.agg h (Cert.KernelIdeal.Fn.srcOf x1) (Cert.KernelIdeal.Fn.dstOf x1) := rfl

/-- The second layers agree. -/
theorem h2_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (hx0 : ∀ i, ∃ r : ℝ, x0 i = (r : EReal)) (hx3 : ∀ i, ∃ r : ℝ, x3 i = (r : EReal)) :
    Cert.ReferenceIdeal.Read.val_main_v37 (F := Ideal) x0 x1 x3 x4 x5 x6 x7 x8 = (Cert.KernelIdeal.Fn.next (Cert.KernelIdeal.Fn.h1 x0 x1 x3 x4 x5) x1 x6 x7 x8) := by
  have e30 : Cert.ReferenceIdeal.Read.val_main_v30 (F := Ideal) x0 x1 x3 x4 x5
      = Cert.KernelIdeal.Fn.agg (Cert.ReferenceIdeal.Read.val_main_v20 (F := Ideal) x0 x1 x3 x4 x5) (Cert.KernelIdeal.Fn.srcOf x1) (Cert.KernelIdeal.Fn.dstOf x1) := by
    unfold Cert.ReferenceIdeal.Read.val_main_v30 Cert.ReferenceIdeal.Read.val_main_v27
    exact agg2_eq _ x1
  rw [Cert.ReferenceIdeal.RefSpec.ref_h2, e30, h1_eq x0 x1 x3 x4 x5 hx0 hx3]
  unfold Cert.KernelIdeal.Fn.next
  rw [Cert.KernelIdeal.RowForms.row64_eq]

/-- The third layers agree. -/
theorem h3_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (hx0 : ∀ i, ∃ r : ℝ, x0 i = (r : EReal)) (hx3 : ∀ i, ∃ r : ℝ, x3 i = (r : EReal)) :
    Cert.ReferenceIdeal.Read.val_main_v54 (F := Ideal) x0 x1 x3 x4 x5 x6 x7 x8 x9 x10 x11 = (Cert.KernelIdeal.Fn.next (Cert.KernelIdeal.Fn.next (Cert.KernelIdeal.Fn.h1 x0 x1 x3 x4 x5) x1 x6 x7 x8) x1 x9 x10 x11) := by
  have e47 : Cert.ReferenceIdeal.Read.val_main_v47 (F := Ideal) x0 x1 x3 x4 x5 x6 x7 x8
      = Cert.KernelIdeal.Fn.agg (Cert.ReferenceIdeal.Read.val_main_v37 (F := Ideal) x0 x1 x3 x4 x5 x6 x7 x8) (Cert.KernelIdeal.Fn.srcOf x1) (Cert.KernelIdeal.Fn.dstOf x1) := by
    unfold Cert.ReferenceIdeal.Read.val_main_v47 Cert.ReferenceIdeal.Read.val_main_v44
    exact agg3_eq _ x1
  rw [Cert.ReferenceIdeal.RefSpec.ref_h3, e47, h2_eq x0 x1 x3 x4 x5 x6 x7 x8 hx0 hx3]
  unfold Cert.KernelIdeal.Fn.next
  simp only [Cert.KernelIdeal.RowForms.row64_eq]

/-- The per-graph sums agree, of any array. -/
theorem sums_eq (h : (⟨Cert.ReferenceIdeal.S50000x64, .f32⟩ : BufTy).Contents (Elt Ideal)) (x2 : (⟨Cert.ReferenceIdeal.S50000, .i32⟩ : BufTy).Contents (Elt Ideal)) :
    Host.scatterAdd (F := Ideal) (φ := .f32) Cert.ReferenceIdeal.scatter_S512x64_S50000x1_S50000x64_1_0_0_1 (Cert.ReferenceIdeal.Read.val_main_v55 (F := Ideal))
        (Cert.ReferenceIdeal.Read.val_main_v56 (F := Ideal) x2) h
      = Cert.KernelIdeal.Fn.sums h x2 := rfl

/-- The per-graph node counts agree. -/
theorem cnts_eq (x2 : (⟨Cert.ReferenceIdeal.S50000, .i32⟩ : BufTy).Contents (Elt Ideal)) : Cert.ReferenceIdeal.Read.val_main_v61 (F := Ideal) x2 = Cert.KernelIdeal.Fn.cnts x2 := rfl

/-- The two programs' results agree. -/
theorem result_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x32, .f32⟩ : BufTy).Contents (Elt Ideal)) (x13 : (⟨Cert.ReferenceIdeal.S32, .f32⟩ : BufTy).Contents (Elt Ideal)) (x14 : (⟨Cert.ReferenceIdeal.S32x1, .f32⟩ : BufTy).Contents (Elt Ideal)) (x15 : (⟨Cert.ReferenceIdeal.S1, .f32⟩ : BufTy).Contents (Elt Ideal)) (hx0 : ∀ i, ∃ r : ℝ, x0 i = (r : EReal)) (hx3 : ∀ i, ∃ r : ℝ, x3 i = (r : EReal)) :
    Cert.ReferenceIdeal.Read.val_main_v75 (F := Ideal) x0 x1 x2 x3 x4 x5 x6 x7 x8 x9 x10 x11 x12 x13 x14 x15 = Cert.KernelIdeal.Fn.readout (Cert.KernelIdeal.Fn.next (Cert.KernelIdeal.Fn.next (Cert.KernelIdeal.Fn.h1 x0 x1 x3 x4 x5) x1 x6 x7 x8) x1 x9 x10 x11) x2 x12 x13 x14 x15 := by
  have e57 : Cert.ReferenceIdeal.Read.val_main_v57 (F := Ideal) x0 x1 x2 x3 x4 x5 x6 x7 x8 x9 x10 x11
      = Cert.KernelIdeal.Fn.sums (Cert.ReferenceIdeal.Read.val_main_v54 (F := Ideal) x0 x1 x3 x4 x5 x6 x7 x8 x9 x10 x11) x2 := by
    unfold Cert.ReferenceIdeal.Read.val_main_v57
    exact sums_eq _ x2
  unfold Cert.ReferenceIdeal.Read.val_main_v75 Cert.KernelIdeal.Fn.readout
  rw [Cert.ReferenceIdeal.RefSpec.ref_out, e57, cnts_eq, h3_eq x0 x1 x3 x4 x5 x6 x7 x8 x9 x10 x11 hx0 hx3, Cert.KernelIdeal.RowForms.row32_eq, Cert.KernelIdeal.RowForms.row1_eq]

end Cert.Bridge

end
-- ==== Proof.FiniteInputs.lean ====
/-
  From the precondition to finiteness.  The precondition is the conjunction, over fourteen input arrays, of
  "every entry has absolute value below plus infinity", each stated as a reduction by "and" of the entrywise comparison
  |x| < +inf, from 1.  When the conjunction is 1, each reduction is 1, so each comparison is 1 at every index, and an
  extended real whose absolute value max x (-x) is below the top element is neither top nor bottom: it is a real.
-/
import Idealize.ShloMosaic.Lib.ValueIdx
import Idealize.ShloMosaic.Lib.ReduceAll
import Idealize.ShloMosaic.PureOps.Ideal
import proofs.«169739_j15650860827313_2_alg».proof.Pre_finite_inputs

noncomputable section

namespace Cert.FiniteInputs

open Idealize.ShloMosaic Idealize.ShloMosaic.ValueIdx Cert.Pre_finite_inputs

instance : Subsingleton S_.Idx := ⟨fun a b => funext fun d => d.elim0⟩

/-- The word 0x7F800000 read as a 32-bit float is plus infinity. -/
theorem ofBits_inf : Ideal.ofBits .f32 0x7F800000#32 = (⊤ : EReal) := by
  simp [Ideal.ofBits, Ideal.ieee]

/-- An extended real whose absolute value compares below plus infinity is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct read back: when the reduction by "and" of |x| < +inf over all of an array's axes is 1, every entry of the
    array is a real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ix0 = 1#1) :
    ∀ i, ∃ r : ℝ, x i = (r : EReal) := fun i =>
  real_of_abs_lt (x i) (Host.reduce_andi_all _ _ hr hu ix0 h i)

/-- The left conjunct of an "and" of two one-bit scalars that is 1. -/
theorem and_left {a b : IVec S_ 1} (h : andi a b ix0 = 1#1) : a ix0 = 1#1 := (IntOp.andi_eq_one.1 h).1
/-- The right conjunct. -/
theorem and_right {a b : IVec S_ 1} (h : andi a b ix0 = 1#1) : b ix0 = 1#1 := (IntOp.andi_eq_one.1 h).2

variable [Cert.Pre_finite_inputs.Facts]

/-- When the precondition holds, the first input array (50000 × 128) and the fourth (128 × 64) have only real entries. -/
theorem finite_of_pre (x0 : FVec Ideal S50000x128 .f32) (x1 : IVec S2x800000 32) (x2 : IVec S50000 32)
    (x3 : FVec Ideal S128x64 .f32) (x4 : FVec Ideal S64 .f32) (x5 : FVec Ideal S128x64 .f32)
    (x6 : FVec Ideal S64x64 .f32) (x7 : FVec Ideal S64 .f32) (x8 : FVec Ideal S64x64 .f32)
    (x9 : FVec Ideal S64x64 .f32) (x10 : FVec Ideal S64 .f32) (x11 : FVec Ideal S64x64 .f32)
    (x12 : FVec Ideal S64x32 .f32) (x13 : FVec Ideal S32 .f32) (x14 : FVec Ideal S32x1 .f32)
    (x15 : FVec Ideal S1 .f32)
    (h : Cert.Pre_finite_inputs.fn (F := Ideal) x0 x1 x2 x3 x4 x5 x6 x7 x8 x9 x10 x11 x12 x13 x14 x15
      = (fun _ => 1#1)) :
    (∀ i, ∃ r : ℝ, x0 i = (r : EReal)) ∧ (∀ i, ∃ r : ℝ, x3 i = (r : EReal)) := by
  have h0 := congrFun h ix0
  dsimp only [fn, fn_part1, fn_part2, fn_part3, fn_part4] at h0
  have h8 := and_left (and_left (and_left (and_left (and_left (and_left (and_left (and_left (and_left (and_left
    (and_left (and_left h0)))))))))))
  exact ⟨all_real x0 _ _ _ (and_left h8), all_real x3 _ _ _ (and_right h8)⟩

end Cert.FiniteInputs

end
-- ==== Proof.lean ====
/-
  The certificate's five claims.

  The three frames: the two kernel programs' frames are proved whole by the frame modules (class A in each of the five
  regions); the reference's frame is its run with the result dropped. The idealization rewrote nothing, so there is
  nothing to preserve. The value claim: the idealized kernel program ends with its result at the fold through its host
  stretches and regions, which is the function `Fn.readout ∘ Fn.next ∘ Fn.next ∘ Fn.h1` of the argument arrays
  (`KernelValue.value`); the reference ends with its result at its operations' composed term, stage by stage the same
  function (`Bridge.result_eq`) — under the precondition, which makes the entries of X and W_rel1 real numbers, so that
  summing the neighbours' rows and multiplying by W_rel1 commute.
-/
import proofs.«169739_j15650860827313_2_alg».proof.Defs
import proofs.«169739_j15650860827313_2_alg».proof.Proof.Gen.Kernel
import proofs.«169739_j15650860827313_2_alg».proof.Proof.Gen.Kernel.Skeleton
import proofs.«169739_j15650860827313_2_alg».proof.Proof.KernelLaunchP
import proofs.«169739_j15650860827313_2_alg».proof.Proof.Gen.Kernel.Points
import proofs.«169739_j15650860827313_2_alg».proof.Proof.KernelFrameP
import proofs.«169739_j15650860827313_2_alg».proof.Proof.Gen.KernelIdeal
import proofs.«169739_j15650860827313_2_alg».proof.Proof.Gen.KernelIdeal.Skeleton
import proofs.«169739_j15650860827313_2_alg».proof.Proof.KernelIdealLaunchP
import proofs.«169739_j15650860827313_2_alg».proof.Proof.Gen.KernelIdeal.Points
import proofs.«169739_j15650860827313_2_alg».proof.Proof.KernelIdealFrameP
import proofs.«169739_j15650860827313_2_alg».proof.Proof.Gen.ReferenceIdeal
import proofs.«169739_j15650860827313_2_alg».proof.Proof.Gen.Pre_finite_inputs
import proofs.«169739_j15650860827313_2_alg».proof.Proof.Gen.ReferenceIdeal.Run
import proofs.«169739_j15650860827313_2_alg».proof.Proof.Gen.ReferenceIdeal.Read
import proofs.«169739_j15650860827313_2_alg».proof.Proof.KernelRun
import proofs.«169739_j15650860827313_2_alg».proof.Proof.KernelValue
import proofs.«169739_j15650860827313_2_alg».proof.Proof.Bridge
import proofs.«169739_j15650860827313_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, the two idealized programs end with equal results. -/
theorem algebraic : Cert.algebraic_KernelIdeal_ReferenceIdeal := by
  intro m ρ m' ρ' hpre hagree
  refine ⟨fun c => Cert.KernelIdeal.GenP.W11 m ρ c (Proc.devRef .tc Cert.KernelIdeal.main_v55),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx0, hx3⟩ := Cert.FiniteInputs.finite_of_pre _ _ _ _ _ _ _ _ _ _ _ _ _ _ _ _ (hpre c)
  obtain ⟨e0, e1, e2, e3, e4, e5, e6, e7, e8, e9, e10, e11, e12, e13, e14, e15⟩ := hagree c
  refine Eq.trans ?_ (Cert.KernelIdeal.KernelValue.value m ρ c).symm
  rw [Cert.ReferenceIdeal.Read.val_main_v75_eq, e0, e1, e2, e3, e4, e5, e6, e7, e8, e9, e10, e11, e12, e13, e14, e15]
  exact Cert.Bridge.result_eq _ _ _ _ _ _ _ _ _ _ _ _ _ _ _ _ hx0 hx3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
